-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S3200000x1 : Shape := ⟨2, ![3200000, 1]⟩
abbrev S256x64 : Shape := ⟨2, ![256, 64]⟩
abbrev S64 : Shape := ⟨1, ![64]⟩
abbrev S320x128 : Shape := ⟨2, ![320, 128]⟩
abbrev S128 : Shape := ⟨1, ![128]⟩
abbrev S128x64 : Shape := ⟨2, ![128, 64]⟩
abbrev S192x64 : Shape := ⟨2, ![192, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S192x64 : S_.BroadcastsInDim S192x64 (![] : Fin 0 → Fin S192x64.rank)
  reducesTo_S192x64_S_d0_1 : S192x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S32 .f32) (main_arg13 : FVec F S32x1 .f32) (main_arg14 : FVec F S1 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x1 .f32 := Host.absf main_arg13
  let main_cst_22 : FVec F S_ .f32 := constant S_ .f32 0x7F800000#32
  let main_v60 : FVec F S32x1 .f32 := broadcastInDim S32x1 ![] bcast_S_S32x1 main_cst_22
  let main_v61 : IVec S32x1 1 := cmpf .olt main_v59 main_v60
  let main_c_23 : IVec S_ 1 := constantI S_ 1 1#1
  let main_v62 : IVec S_ 1 := (fun x v => Host.reduce IntOp.andi x v reducesTo_S32x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S64 .f32) (main_arg9 : FVec F S192x64 .f32) (main_arg10 : FVec F S64 .f32) (main_arg11 : FVec F S64x32 .f32) (main_arg12 : FVec F S32 .f32) (main_arg13 : FVec F S32x1 .f32) (main_arg14 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x64 .f32 := Host.absf main_arg9
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg11
  let main_cst_18 : FVec F S_ .f32 := constant S_ .f32 0x7F800000#32
  let main_v50 : FVec F S64x32 .f32 := broadcastInDim S64x32 ![] bcast_S_S64x32 main_cst_18
  fn_part3 (F := F) main_arg12 main_arg13 main_arg14 main_v48 main_v49 main_v50

def fn_part1 {F : FTy → Type} [FloatOps F] (main_arg5 : FVec F S320x128 .f32) (main_arg6 : FVec F S128 .f32) (main_arg7 : FVec F S128x64 .f32) (main_arg8 : FVec F S64 .f32) (main_arg9 : FVec F S192x64 .f32) (main_arg10 : FVec F S64 .f32) (main_arg11 : FVec F S64x32 .f32) (main_arg12 : FVec F S32 .f32) (main_arg13 : FVec F S32x1 .f32) (main_arg14 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S320x128 .f32 := Host.absf main_arg5
  let main_cst_6 : FVec F S_ .f32 := constant S_ .f32 0x7F800000#32
  let main_v20 : FVec F S320x128 .f32 := broadcastInDim S320x128 ![] bcast_S_S320x128 main_cst_6
  let main_v21 : IVec S320x128 1 := cmpf .olt main_v19 main_v20
  let main_c_7 : IVec S_ 1 := constantI S_ 1 1#1
  let main_v22 : IVec S_ 1 := (fun x v => Host.reduce IntOp.andi x v reducesTo_S320x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x256 .f32) (main_arg1 : IVec S2x3200000 32) (main_arg2 : FVec F S3200000x1 .f32) (main_arg3 : FVec F S256x64 .f32) (main_arg4 : FVec F S64 .f32) (main_arg5 : FVec F S320x128 .f32) (main_arg6 : FVec F S128 .f32) (main_arg7 : FVec F S128x64 .f32) (main_arg8 : FVec F S64 .f32) (main_arg9 : FVec F S192x64 .f32) (main_arg10 : FVec F S64 .f32) (main_arg11 : FVec F S64x32 .f32) (main_arg12 : FVec F S32 .f32) (main_arg13 : FVec F S32x1 .f32) (main_arg14 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000x1 .f32 := Host.absf main_arg2
  let main_cst_0 : FVec F S_ .f32 := constant S_ .f32 0x7F800000#32
  let main_v5 : FVec F S3200000x1 .f32 := broadcastInDim S3200000x1 ![] bcast_S_S3200000x1 main_cst_0
  let main_v6 : IVec S3200000x1 1 := cmpf .olt main_v4 main_v5
  let main_c_1 : IVec S_ 1 := constantI S_ 1 1#1
  let main_v7 : IVec S_ 1 := (fun x v => Host.reduce IntOp.andi x v reducesTo_S3200000x1_S_d0_1 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x256 : Shape := ⟨2, ![100000, 256]⟩
abbrev S2x3200000 : Shape := ⟨2, ![2, 3200000]⟩
abbrev S3200000x1 : Shape := ⟨2, ![3200000, 1]⟩
abbrev S256x64 : Shape := ⟨2, ![256, 64]⟩
abbrev S64 : Shape := ⟨1, ![64]⟩
abbrev S320x128 : Shape := ⟨2, ![320, 128]⟩
abbrev S128 : Shape := ⟨1, ![128]⟩
abbrev S128x64 : Shape := ⟨2, ![128, 64]⟩
abbrev S192x64 : Shape := ⟨2, ![192, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S100000x1 : Shape := ⟨2, ![100000, 1]⟩
abbrev S1x64 : Shape := ⟨2, ![1, 64]⟩
abbrev S100000x64 : Shape := ⟨2, ![100000, 64]⟩
abbrev S5000x256 : Shape := ⟨2, ![5000, 256]⟩
abbrev S5000x64 : Shape := ⟨2, ![5000, 64]⟩
abbrev S3200000x64 : Shape := ⟨2, ![3200000, 64]⟩
abbrev S256x128 : Shape := ⟨2, ![256, 128]⟩
abbrev S64x128 : Shape := ⟨2, ![64, 128]⟩
abbrev S1x128 : Shape := ⟨2, ![1, 128]⟩
abbrev S100000x128 : Shape := ⟨2, ![100000, 128]⟩
abbrev S5000x1 : Shape := ⟨2, ![5000, 1]⟩
abbrev S5000x128 : Shape := ⟨2, ![5000, 128]⟩
abbrev S64x64 : Shape := ⟨2, ![64, 64]⟩
abbrev S1x32 : Shape := ⟨2, ![1, 32]⟩
abbrev S1x1 : Shape := ⟨2, ![1, 1]⟩
abbrev S5000x32 : Shape := ⟨2, ![5000, 32]⟩

abbrev nBuf : Space → Nat
  | .hbm => 72
  | .vmem => 36
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000x1, .f32⟩
  | .hbm, ⟨3, _⟩ => ⟨S256x64, .f32⟩
  | .hbm, ⟨4, _⟩ => ⟨S64, .f32⟩
  | .hbm, ⟨5, _⟩ => ⟨S320x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S1x3200000, .i32⟩
  | .hbm, ⟨16, _⟩ => ⟨S3200000, .i32⟩
  | .hbm, ⟨17, _⟩ => ⟨S1x3200000, .i32⟩
  | .hbm, ⟨18, _⟩ => ⟨S3200000, .i32⟩
  | .hbm, ⟨19, _⟩ => ⟨S_, .f32⟩
  | .hbm, ⟨20, _⟩ => ⟨S3200000, .f32⟩
  | .hbm, ⟨21, _⟩ => ⟨S_, .f32⟩
  | .hbm, ⟨22, _⟩ => ⟨S100000, .f32⟩
  | .hbm, ⟨23, _⟩ => ⟨S3200000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S1x64, .f32⟩
  | .hbm, ⟨33, _⟩ => ⟨S100000x64, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000x64, .f32⟩
  | .hbm, ⟨43, _⟩ => ⟨S_, .f32⟩
  | .hbm, ⟨44, _⟩ => ⟨S100000x64, .f32⟩
  | .hbm, ⟨45, _⟩ => ⟨S3200000x1, .i32⟩
  | .hbm, ⟨46, _⟩ => ⟨S100000x64, .f32⟩
  | .hbm, ⟨47, _⟩ => ⟨S256x128, .f32⟩
  | .hbm, ⟨48, _⟩ => ⟨S64x128, .f32⟩
  | .hbm, ⟨49, _⟩ => ⟨S1x128, .f32⟩
  | .hbm, ⟨50, _⟩ => ⟨S1x64, .f32⟩
  | .hbm, ⟨51, _⟩ => ⟨S100000x128, .f32⟩
  | .hbm, ⟨52, _⟩ => ⟨S100000x64, .f32⟩
  | .hbm, ⟨53, _⟩ => ⟨S_, .i32⟩
  | .hbm, ⟨54, _⟩ => ⟨S3200000, .i32⟩
  | .hbm, ⟨55, _⟩ => ⟨S3200000, .i1⟩
  | .hbm, ⟨56, _⟩ => ⟨S_, .i32⟩
  | .hbm, ⟨57, _⟩ => ⟨S3200000, .i32⟩
  | .hbm, ⟨58, _⟩ => ⟨S3200000, .i32⟩
  | .hbm, ⟨59, _⟩ => ⟨S3200000, .i32⟩
  | .hbm, ⟨60, _⟩ => ⟨S3200000x1, .i32⟩
  | .hbm, ⟨61, _⟩ => ⟨S3200000x64, .f32⟩
  | .hbm, ⟨62, _⟩ => ⟨S_, .f32⟩
  | .hbm, ⟨63, _⟩ => ⟨S100000x64, .f32⟩
  | .hbm, ⟨64, _⟩ => ⟨S3200000x1, .i32⟩
  | .hbm, ⟨65, _⟩ => ⟨S100000x64, .f32⟩
  | .hbm, ⟨66, _⟩ => ⟨S128x64, .f32⟩
  | .hbm, ⟨67, _⟩ => ⟨S64x64, .f32⟩
  | .hbm, ⟨68, _⟩ => ⟨S1x64, .f32⟩
  | .hbm, ⟨69, _⟩ => ⟨S1x32, .f32⟩
  | .hbm, ⟨70, _⟩ => ⟨S1x1, .f32⟩
  | .hbm, ⟨71, _⟩ => ⟨S100000x1, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x256, .f32⟩
  | .local _ .vmem, ⟨7, _⟩ => ⟨S5000x256, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S256x128, .f32⟩
  | .local _ .vmem, ⟨13, _⟩ => ⟨S64x128, .f32⟩
  | .local _ .vmem, ⟨14, _⟩ => ⟨S1x128, .f32⟩
  | .local _ .vmem, ⟨15, _⟩ => ⟨S128x64, .f32⟩
  | .local _ .vmem, ⟨16, _⟩ => ⟨S1x64, .f32⟩
  | .local _ .vmem, ⟨17, _⟩ => ⟨S5000x128, .f32⟩
  | .local _ .vmem, ⟨18, _⟩ => ⟨S5000x128, .f32⟩
  | .local _ .vmem, ⟨19, _⟩ => ⟨S5000x64, .f32⟩
  | .local _ .vmem, ⟨20, _⟩ => ⟨S5000x64, .f32⟩
  | .local _ .vmem, ⟨21, _⟩ => ⟨S5000x128, .f32⟩
  | .local _ .vmem, ⟨22, _⟩ => ⟨S5000x128, .f32⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S128x64, .f32⟩
  | .local _ .vmem, ⟨28, _⟩ => ⟨S64x64, .f32⟩
  | .local _ .vmem, ⟨29, _⟩ => ⟨S1x64, .f32⟩
  | .local _ .vmem, ⟨30, _⟩ => ⟨S64x32, .f32⟩
  | .local _ .vmem, ⟨31, _⟩ => ⟨S1x32, .f32⟩
  | .local _ .vmem, ⟨32, _⟩ => ⟨S32x1, .f32⟩
  | .local _ .vmem, ⟨33, _⟩ => ⟨S1x1, .f32⟩
  | .local _ .vmem, ⟨34, _⟩ => ⟨S5000x1, .f32⟩
  | .local _ .vmem, ⟨35, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29_0 : Ref sig .tc := ⟨.hbm, 51, rfl⟩
abbrev main_v29_1 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg10_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc1_sem9_0 : DmaSem sig := 19
abbrev cc1_sem9_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem10_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  slices_S320x128_S256x128_0_0 : S320x128.Slices ![0, 0] S256x128
  slices_S320x128_S64x128_256_0 : S320x128.Slices ![256, 0] S64x128
  shapeCasts_S128_S1x128 : S128.ShapeCasts S1x128
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  slices_S192x64_S128x64_0_0 : S192x64.Slices ![0, 0] S128x64
  slices_S192x64_S64x64_128_0 : S192x64.Slices ![128, 0] S64x64
  shapeCasts_S32_S1x32 : S32.ShapeCasts S1x32
  shapeCasts_S1_S1x1 : S1.ShapeCasts S1x1
  shapeCasts_S5000x128_S5000x128 : S5000x128.ShapeCasts S5000x128
  shapeCasts_S128x64_S128x64 : S128x64.ShapeCasts S128x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S3200000x1_S3200000_n_0_0_1_wf : ScatterDims.WF S100000 S3200000x1 S3200000 [] [0] [0] 1
  dot_S5000x256_S256x64_S5000x64_1_0_0_1_n_n_wf : DotDims.WF S5000x256 S256x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x256_S256x128_S5000x128_1_0_0_1_n_n_wf : DotDims.WF S5000x256 S256x128 S5000x128 [1] [0] [0] [1] [] []
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S100000x128.size a
  hwx1_8 : ∀ i : grid1.Coords, EltTy.bits .f32 = 32 ∨ (Rect.block (s := S100000x128) S5000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S100000x64.size a
  hwx1_9 : ∀ i : grid1.Coords, EltTy.bits .f32 = 32 ∨ (Rect.block (s := S100000x64) S5000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x32.size a ≤ S64x32.size a
  hwx2_6 : ∀ i : grid2.Coords, EltTy.bits .f32 = 32 ∨ (Rect.block (s := S64x32) S64x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S32x1.size a ≤ S32x1.size a
  hwx2_8 : ∀ i : grid2.Coords, EltTy.bits .f32 = 32 ∨ (Rect.block (s := S32x1) S32x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x1.size a ≤ S100000x1.size a
  hwx2_10 : ∀ i : grid2.Coords, EltTy.bits .f32 = 32 ∨ (Rect.block (s := S100000x1) S5000x1.size (cc2_transform_10 i) (hinb2_10 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29_0) S5000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v29_1) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v29_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S64x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v43) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg13) S32x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v44) S1x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v45) S5000x1.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S3200000x1 : Shape := ⟨2, ![3200000, 1]⟩
abbrev S256x64 : Shape := ⟨2, ![256, 64]⟩
abbrev S64 : Shape := ⟨1, ![64]⟩
abbrev S320x128 : Shape := ⟨2, ![320, 128]⟩
abbrev S128 : Shape := ⟨1, ![128]⟩
abbrev S128x64 : Shape := ⟨2, ![128, 64]⟩
abbrev S192x64 : Shape := ⟨2, ![192, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000x64 : Shape := ⟨2, ![100000, 64]⟩
abbrev S1x64 : Shape := ⟨2, ![1, 64]⟩
abbrev S_ : Shape := ⟨0, ![]⟩
abbrev S3200000x64 : Shape := ⟨2, ![3200000, 64]⟩
abbrev S100000 : Shape := ⟨1, ![100000]⟩
abbrev S100000x1 : Shape := ⟨2, ![100000, 1]⟩
abbrev S100000x320 : Shape := ⟨2, ![100000, 320]⟩
abbrev S100000x128 : Shape := ⟨2, ![100000, 128]⟩
abbrev S1x128 : Shape := ⟨2, ![1, 128]⟩
abbrev S100000x192 : Shape := ⟨2, ![100000, 192]⟩
abbrev S100000x32 : Shape := ⟨2, ![100000, 32]⟩
abbrev S1x32 : Shape := ⟨2, ![1, 32]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000x1, .f32⟩
  | .hbm, ⟨3, _⟩ => ⟨S256x64, .f32⟩
  | .hbm, ⟨4, _⟩ => ⟨S64, .f32⟩
  | .hbm, ⟨5, _⟩ => ⟨S320x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S1x3200000, .i32⟩
  | .hbm, ⟨16, _⟩ => ⟨S3200000, .i32⟩
  | .hbm, ⟨17, _⟩ => ⟨S1x3200000, .i32⟩
  | .hbm, ⟨18, _⟩ => ⟨S3200000, .i32⟩
  | .hbm, ⟨19, _⟩ => ⟨S100000x64, .f32⟩
  | .hbm, ⟨20, _⟩ => ⟨S1x64, .f32⟩
  | .hbm, ⟨21, _⟩ => ⟨S100000x64, .f32⟩
  | .hbm, ⟨22, _⟩ => ⟨S100000x64, .f32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S3200000x1, .i32⟩
  | .hbm, ⟨31, _⟩ => ⟨S3200000x64, .f32⟩
  | .hbm, ⟨32, _⟩ => ⟨S_, .f32⟩
  | .hbm, ⟨33, _⟩ => ⟨S100000x64, .f32⟩
  | .hbm, ⟨34, _⟩ => ⟨S3200000x1, .i32⟩
  | .hbm, ⟨35, _⟩ => ⟨S100000x64, .f32⟩
  | .hbm, ⟨36, _⟩ => ⟨S_, .f32⟩
  | .hbm, ⟨37, _⟩ => ⟨S3200000, .f32⟩
  | .hbm, ⟨38, _⟩ => ⟨S_, .f32⟩
  | .hbm, ⟨39, _⟩ => ⟨S100000, .f32⟩
  | .hbm, ⟨40, _⟩ => ⟨S3200000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x64, .f32⟩
  | .hbm, ⟨47, _⟩ => ⟨S100000x64, .f32⟩
  | .hbm, ⟨48, _⟩ => ⟨S100000x320, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S_, .i32⟩
  | .hbm, ⟨61, _⟩ => ⟨S3200000, .i32⟩
  | .hbm, ⟨62, _⟩ => ⟨S3200000, .i1⟩
  | .hbm, ⟨63, _⟩ => ⟨S_, .i32⟩
  | .hbm, ⟨64, _⟩ => ⟨S3200000, .i32⟩
  | .hbm, ⟨65, _⟩ => ⟨S3200000, .i32⟩
  | .hbm, ⟨66, _⟩ => ⟨S3200000, .i32⟩
  | .hbm, ⟨67, _⟩ => ⟨S3200000x1, .i32⟩
  | .hbm, ⟨68, _⟩ => ⟨S3200000x64, .f32⟩
  | .hbm, ⟨69, _⟩ => ⟨S_, .f32⟩
  | .hbm, ⟨70, _⟩ => ⟨S100000x64, .f32⟩
  | .hbm, ⟨71, _⟩ => ⟨S3200000x1, .i32⟩
  | .hbm, ⟨72, _⟩ => ⟨S100000x64, .f32⟩
  | .hbm, ⟨73, _⟩ => ⟨S_, .f32⟩
  | .hbm, ⟨74, _⟩ => ⟨S3200000, .f32⟩
  | .hbm, ⟨75, _⟩ => ⟨S_, .f32⟩
  | .hbm, ⟨76, _⟩ => ⟨S100000, .f32⟩
  | .hbm, ⟨77, _⟩ => ⟨S3200000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x64, .f32⟩
  | .hbm, ⟨84, _⟩ => ⟨S100000x64, .f32⟩
  | .hbm, ⟨85, _⟩ => ⟨S100000x192, .f32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x64, .f32⟩
  | .hbm, ⟨92, _⟩ => ⟨S100000x64, .f32⟩
  | .hbm, ⟨93, _⟩ => ⟨S100000x32, .f32⟩
  | .hbm, ⟨94, _⟩ => ⟨S1x32, .f32⟩
  | .hbm, ⟨95, _⟩ => ⟨S100000x32, .f32⟩
  | .hbm, ⟨96, _⟩ => ⟨S100000x32, .f32⟩
  | .hbm, ⟨97, _⟩ => ⟨S_, .f32⟩
  | .hbm, ⟨98, _⟩ => ⟨S100000x32, .f32⟩
  | .hbm, ⟨99, _⟩ => ⟨S100000x32, .f32⟩
  | .hbm, ⟨100, _⟩ => ⟨S100000x1, .f32⟩
  | .hbm, ⟨101, _⟩ => ⟨S1x1, .f32⟩
  | .hbm, ⟨102, _⟩ => ⟨S100000x1, .f32⟩
  | .hbm, ⟨103, _⟩ => ⟨S100000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call0_cst : Ref sig .tc := ⟨.hbm, 53, rfl⟩
abbrev main_call0_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_4 : Ref sig .tc := ⟨.hbm, 60, rfl⟩
abbrev main_v37 : Ref sig .tc := ⟨.hbm, 61, rfl⟩
abbrev main_v38 : Ref sig .tc := ⟨.hbm, 62, rfl⟩
abbrev main_c_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call1_cst : Ref sig .tc := ⟨.hbm, 90, rfl⟩
abbrev main_call1_v0 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call2_cst : Ref sig .tc := ⟨.hbm, 97, rfl⟩
abbrev main_call2_v0 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x256_S100000x64_S100000x320_d1 : Shape.Concatenates [S100000x256, S100000x64] S100000x320 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  concatenates_S100000x128_S100000x64_S100000x192_d1 : Shape.Concatenates [S100000x128, S100000x64] S100000x192 1
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x256_S256x64_S100000x64_1_0_0_1_n_n_wf : DotDims.WF S100000x256 S256x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000_S3200000x1_S3200000_n_0_0_1_wf : ScatterDims.WF S100000 S3200000x1 S3200000 [] [0] [0] 1
  dot_S100000x320_S320x128_S100000x128_1_0_0_1_n_n_wf : DotDims.WF S100000x320 S320x128 S100000x128 [1] [0] [0] [1] [] []
  dot_S100000x128_S128x64_S100000x64_1_0_0_1_n_n_wf : DotDims.WF S100000x128 S128x64 S100000x64 [1] [0] [0] [1] [] []
  dot_S100000x192_S192x64_S100000x64_1_0_0_1_n_n_wf : DotDims.WF S100000x192 S192x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x320_S320x128_S100000x128_1_0_0_1_n_n : DotDims S100000x320 S320x128 S100000x128 where
  lhsContracting := [1]
  rhsContracting := [0]
  lhsNonContracting := [0]
  rhsNonContracting := [1]
  lhsBatch := []
  rhsBatch := []
  wf := dot_S100000x320_S320x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KRun.lean ====
/-
  The run of the three-region program with its result kept.

  The program is three stretches of host operations, each followed by one grid of kernel launches. Every weakly fair
  execution terminates, and in the final memory every buffer that lives outside the kernels' scratch holds the contents
  obtained by folding the program over the launch memory: a host stretch applies its operations, a region replaces each
  of its output arrays by what its grid points wrote back and leaves every other buffer alone. Here that reading is
  kept for the result buffer (the last region's output) as well as for the fifteen argument arrays, which no operation
  and no region writes.
-/
import proofs.«161832_j61529701482519_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the fold's contents and the arguments as launched. -/
theorem run : θ_run defs (onTc (τ := τ) (main (F := F))) ⟨m, fun _ => 0, ρ⟩ (fun r => ∀ c : Dev nD,
      r.2.mem ((c.tc : Thread nD τ).loc main_v45) = W6 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v45 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.Whole

end
-- ==== Proof.LibKeepdims.lean ====
/-
  Column ("keepdims") forms read at an index, over any extents: a vector of length `a` viewed as an `[a, 1]` column, a
  column broadcast along the rows of an `[a, b]` array, and, over the extended reals, the sum of an `[a, b]` array
  along its rows (one value per row) and the sum of an `[a, 1]` column along its one column (one value).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- A length-`a` vector viewed as an `[a, 1]` column reads, at `(r, 0)`, the vector at `r`: the two row-major positions
    agree. -/
theorem shapeCast_a_a1_apply {a : ℕ} (x : (⟨1, ![a]⟩ : Shape).Idx → α)
    (h : (⟨1, ![a]⟩ : Shape).ShapeCasts ⟨2, ![a, 1]⟩) (r : Fin a) (q : Fin 1) :
    shapeCast ⟨2, ![a, 1]⟩ x h (ix2 r q) = x (ix1 r) := by
  refine shapeCast_apply x h (ix2 r q) (ix1 r) ?_
  rw [Shape.rowMajor_val_one, Shape.rowMajor_val_two]
  show r.val = r.val * 1 + q.val
  have := q.isLt
  omega

/-- An `[a, 1]` column broadcast to `[a, b]` reads, at `(r, c)`, the column at row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the extended reals the sum of an `[a, b]` array along axis 1 is, at row `r`, the sum of that row's `b` entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.reduceAdd_single h v (ix1 r)).trans ?_
  refine Finset.sum_congr rfl fun k _ => congrArg v ?_
  funext c
  apply Fin.ext
  match c with
  | ⟨0, _⟩ => rfl
  | ⟨1, _⟩ => rfl

/-- Over the extended reals the sum of an `[a, 1]` column along axis 0 is the sum of its `a` entries. -/
theorem colSum_apply {a : ℕ} (w : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (q : Fin 1) :
    multiReduction .add [0] ⟨1, ![1]⟩ w 0x00000000#32 h hφ hacc (ix1 q) = ∑ r : Fin a, w (ix2 r q) := by
  refine (Ideal.reduceAdd_single h w (ix1 q)).trans ?_
  refine Finset.sum_congr rfl fun k _ => congrArg w ?_
  funext c
  apply Fin.ext
  match c with
  | ⟨0, _⟩ => rfl
  | ⟨1, _⟩ => rfl

end Cert.Keepdims

end
-- ==== Proof.LibDense.lean ====
/-
  The arithmetic the three kernels and the reference share, over the extended reals and over arbitrary extents.
  A dense layer entry: for a row `p` of an `[R, K]` array `x`, a `[K, N]` matrix `w`, a bias `b` of length `N` and an
  `[R, 1]` column of row weights, the entry `(p, q)` is `max (∑ k, x p k · w k q + b q) 0 · col p`. Beside it the two
  row-wise operations: an array times a column of row weights, and an array divided by a column of row normalizers.
  The lemmas read the kernels' vector operations (a matrix product into a zero accumulator, the bias viewed as one row
  and repeated over the rows, a column repeated over the lanes) at one index.
-/
import Idealize.ShloMosaic.Lib.Pipeline.Value
import Idealize.ShloMosaic.Lib.ValueIdx
import Idealize.ShloMosaic.Lib.ValueLayout
import Idealize.ShloMosaic.PureOps.Ideal.Laws
import proofs.«161832_j61529701482519_2_alg».proof.Proof.LibKeepdims

noncomputable section

namespace Cert.Dense

open Idealize.ShloMosaic Idealize.ShloMosaic.ValueIdx

/-- Entry `(p, q)` of the dense layer with relu and row weights. -/
def layerAt {R K N : ℕ} (x : FVec Ideal ⟨2, ![R, K]⟩ .f32) (w : FVec Ideal ⟨2, ![K, N]⟩ .f32)
    (b : FVec Ideal ⟨1, ![N]⟩ .f32) (col : FVec Ideal ⟨2, ![R, 1]⟩ .f32) (p : Fin R) (q : Fin N) : EReal :=
  max ((∑ k : Fin K, x (ix2 p k) * w (ix2 k q)) + b (ix1 q)) (Ideal.ofBits .f32 0x00000000#32) * col (ix2 p (0 : Fin 1))

/-- The dense layer as a whole array. -/
def layer {R K N : ℕ} (x : FVec Ideal ⟨2, ![R, K]⟩ .f32) (w : FVec Ideal ⟨2, ![K, N]⟩ .f32)
    (b : FVec Ideal ⟨1, ![N]⟩ .f32) (col : FVec Ideal ⟨2, ![R, 1]⟩ .f32) : FVec Ideal ⟨2, ![R, N]⟩ .f32 :=
  fun i => layerAt x w b col (i 0) (i 1)

/-- Every row of `x` times that row's weight. -/
def scaleRows {R N : ℕ} (x : FVec Ideal ⟨2, ![R, N]⟩ .f32) (col : FVec Ideal ⟨2, ![R, 1]⟩ .f32) : FVec Ideal ⟨2, ![R, N]⟩ .f32 :=
  fun i => x i * col (ix2 (i 0) (0 : Fin 1))

/-- Every row of `x` divided by that row's normalizer. -/
def divRows {R N : ℕ} (x : FVec Ideal ⟨2, ![R, N]⟩ .f32) (col : FVec Ideal ⟨2, ![R, 1]⟩ .f32) : FVec Ideal ⟨2, ![R, N]⟩ .f32 :=
  fun i => Ideal.div (x i) (col (ix2 (i 0) (0 : Fin 1)))

theorem layer_apply {R K N : ℕ} (x : FVec Ideal ⟨2, ![R, K]⟩ .f32) (w : FVec Ideal ⟨2, ![K, N]⟩ .f32)
    (b : FVec Ideal ⟨1, ![N]⟩ .f32) (col : FVec Ideal ⟨2, ![R, 1]⟩ .f32) (p : Fin R) (q : Fin N) :
    layer x w b col (ix2 p q) = layerAt x w b col p q := rfl

theorem scaleRows_apply {R N : ℕ} (x : FVec Ideal ⟨2, ![R, N]⟩ .f32) (col : FVec Ideal ⟨2, ![R, 1]⟩ .f32) (p : Fin R) (q : Fin N) :
    scaleRows x col (ix2 p q) = x (ix2 p q) * col (ix2 p (0 : Fin 1)) := rfl

theorem divRows_apply {R N : ℕ} (x : FVec Ideal ⟨2, ![R, N]⟩ .f32) (col : FVec Ideal ⟨2, ![R, 1]⟩ .f32) (p : Fin R) (q : Fin N) :
    divRows x col (ix2 p q) = Ideal.div (x (ix2 p q)) (col (ix2 p (0 : Fin 1))) := rfl

/-- A layer entry depends on row `p` of `x`, on `w`, on `b` and on the weight of row `p` only: two sets of operands that
    agree there give the same entry (a block of rows against the whole array). -/
theorem layerAt_congr {R R' K N : ℕ} (x : FVec Ideal ⟨2, ![R, K]⟩ .f32) (x' : FVec Ideal ⟨2, ![R', K]⟩ .f32)
    (w w' : FVec Ideal ⟨2, ![K, N]⟩ .f32) (b b' : FVec Ideal ⟨1, ![N]⟩ .f32)
    (col : FVec Ideal ⟨2, ![R, 1]⟩ .f32) (col' : FVec Ideal ⟨2, ![R', 1]⟩ .f32) (p : Fin R) (p' : Fin R') (q : Fin N)
    (hx : ∀ k : Fin K, x (ix2 p k) = x' (ix2 p' k)) (hw : w = w') (hb : b = b')
    (hc : col (ix2 p (0 : Fin 1)) = col' (ix2 p' (0 : Fin 1))) :
    layerAt x w b col p q = layerAt x' w' b' col' p' q := by
  subst hw; subst hb
  unfold layerAt
  rw [hc, Finset.sum_congr rfl fun k _ => by rw [hx k]]

/-- A matrix product into a zero accumulator, rows times columns with one contracted axis, read at `(p, q)`: the sum
    over `k` of `x p k · w k q`. The four hypotheses say which operand coordinates the dimension numbers pick. -/
theorem matmul_rows {R K N : ℕ} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (w : FVec Ideal ⟨2, ![K, N]⟩ .f32) (p : Fin R) (q : Fin N) :
    matmul d none x w (constant (F := Ideal) ⟨2, ![R, N]⟩ .f32 0x00000000#32) (ix2 p q) = ∑ k : Fin K, x (ix2 p k) * w (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The dense kernel body's arithmetic at `(p, q)`: the product into a zero accumulator, plus the bias viewed as one row
    and repeated over the rows, clamped below at zero, times the row-weight column repeated over the lanes — a layer
    entry. -/
theorem layer_payload {R K N : ℕ} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (col : FVec Ideal ⟨2, ![R, 1]⟩ .f32) (w : FVec Ideal ⟨2, ![K, N]⟩ .f32)
    (b : FVec Ideal ⟨1, ![N]⟩ .f32)
    (hc1 : (⟨2, ![K, N]⟩ : Shape).ShapeCasts ⟨2, ![K, N]⟩) (hc2 : (⟨1, ![N]⟩ : Shape).ShapeCasts ⟨2, ![1, N]⟩)
    (hb1 : (⟨2, ![1, N]⟩ : Shape).Broadcasts ⟨2, ![R, N]⟩) (hb2 : (⟨2, ![R, 1]⟩ : Shape).Broadcasts ⟨2, ![R, N]⟩)
    (p : Fin R) (q : Fin N) :
    mulf (maximumf (addf (matmul d none x (shapeCast ⟨2, ![K, N]⟩ w hc1) (constant (F := Ideal) ⟨2, ![R, N]⟩ .f32 0x00000000#32))
        (broadcastTo ⟨2, ![R, N]⟩ (shapeCast ⟨2, ![1, N]⟩ b hc2) hb1))
        (broadcast ⟨2, ![R, N]⟩ (Scalar.ofBits (F := Ideal) .f32 0x00000000#32)))
      (broadcastTo ⟨2, ![R, N]⟩ col hb2) (ix2 p q)
    = layerAt x w b col p q := by
  rw [mulf_apply, maximumf_apply, addf_apply, broadcast_apply, matmul_rows d hr hs hl0 hl1 hr0 hr1,
    broadcastTo_1b_ab_apply, shapeCast_a_1a_apply, Cert.Keepdims.broadcastTo_a1_ab_apply, shapeCast_self]
  rfl

/-- An array times a column repeated over the lanes, at `(p, q)`. -/
theorem scale_payload {R N : ℕ} (x : FVec Ideal ⟨2, ![R, N]⟩ .f32) (col : FVec Ideal ⟨2, ![R, 1]⟩ .f32)
    (hb : (⟨2, ![R, 1]⟩ : Shape).Broadcasts ⟨2, ![R, N]⟩) (p : Fin R) (q : Fin N) :
    mulf x (broadcastTo ⟨2, ![R, N]⟩ col hb) (ix2 p q) = x (ix2 p q) * col (ix2 p (0 : Fin 1)) := by
  rw [mulf_apply, Cert.Keepdims.broadcastTo_a1_ab_apply]

/-- An array divided by a column repeated over the lanes, at `(p, q)`. -/
theorem div_payload {R N : ℕ} (x : FVec Ideal ⟨2, ![R, N]⟩ .f32) (col : FVec Ideal ⟨2, ![R, 1]⟩ .f32)
    (hc : (⟨2, ![R, N]⟩ : Shape).ShapeCasts ⟨2, ![R, N]⟩)
    (hb : (⟨2, ![R, 1]⟩ : Shape).Broadcasts ⟨2, ![R, N]⟩) (p : Fin R) (q : Fin N) :
    divf (shapeCast ⟨2, ![R, N]⟩ x hc) (broadcastTo ⟨2, ![R, N]⟩ col hb) (ix2 p q)
      = Ideal.div (x (ix2 p q)) (col (ix2 p (0 : Fin 1))) := by
  rw [divf_apply, Cert.Keepdims.broadcastTo_a1_ab_apply, shapeCast_self]

end Cert.Dense

end
-- ==== Proof.LibHostDense.lean ====
/-
  Host-side forms of a dense layer's parts, read at one index, over the extended reals and over arbitrary extents:
  the host's dot_general of an [R, K] array with a [K, N] array (one contracted axis) at (p, q) is the sum over k of
  x p k · w k q; a length-N vector viewed as a [1, N] row and repeated down R rows reads, at (p, q), the vector at q;
  and a maximum with the zero constant spread over the whole array reads, at an index, max (x i) 0.
-/
import Idealize.ShloMosaic.Lib.Pipeline.Value
import Idealize.ShloMosaic.Lib.ValueIdx
import Idealize.ShloMosaic.PureOps.Ideal.Laws
import proofs.«161832_j61529701482519_2_alg».proof.Proof.LibDense

noncomputable section

namespace Cert.HostDense

open Idealize.ShloMosaic Idealize.ShloMosaic.ValueIdx

/-- The host's dot_general, rows times columns with one contracted axis, read at (p, q): the sum over k of
    x p k · w k q. The four hypotheses say which operand coordinates the dimension numbers pick. Over the extended reals
    it is the same sum as the vector unit's product into a zero accumulator. -/
theorem dotGeneral_rows {R K N : ℕ} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (w : FVec Ideal ⟨2, ![K, N]⟩ .f32) (p : Fin R) (q : Fin N) :
    Host.dotGeneral (F := Ideal) d none x w (ix2 p q) = ∑ k : Fin K, x (ix2 p k) * w (ix2 k q) := by
  simp only [Host.dotGeneral]
  rw [Ideal.dotGeneral_apply, ← Ideal.matmul_constant_zero_apply d none x w (ix2 p q)]
  exact Cert.Dense.matmul_rows d hr hs hl0 hl1 hr0 hr1 x w p q

variable {α : Type}

/-- A length-N vector placed along axis 1 of a [1, N] row, the row then repeated down R rows: at (p, q) the vector at q. -/
theorem rowOfVector_apply {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (p : Fin R) (q : Fin N) :
    broadcastInDim ⟨2, ![R, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The maximum with the zero constant spread over the whole array, at an index. -/
theorem maxZero_apply {s : Shape} (x : FVec Ideal s .f32) (h : (⟨0, ![]⟩ : Shape).BroadcastsInDim s (![] : Fin 0 → Fin s.rank)) (i : s.Idx) :
    maximumf x (broadcastInDim s ![] h (constant (F := Ideal) ⟨0, ![]⟩ .f32 0x00000000#32)) i
      = max (x i) (Ideal.ofBits .f32 0x00000000#32) := by
  rw [maximumf_apply, broadcastInDim_apply ![] h _ i ix0 (fun a => a.elim0), constant_apply]

end Cert.HostDense

end
-- ==== Proof.LibSage.lean ====
/-
  One layer of the network, over the extended reals and over arbitrary extents: for a row p of the averaged neighbour
  features `mean` and of the node's own features `x` (both [M, K]), two [K, N] matrices and a bias, entry (p, q) of the
  layer is  ∑ k, mean p k · wl k q  +  ∑ k, x p k · wr k q  +  bias q.  The compute units add the two products first and
  the bias last; the host adds the bias to the first product and the second product last. Addition of extended reals
  is commutative and associative, so the two are one number, with no finiteness needed.
  The lemmas read both spellings at one index (p, q).
-/
import Idealize.ShloMosaic.Lib.Pipeline.Value
import Idealize.ShloMosaic.Lib.ValueIdx
import Idealize.ShloMosaic.Lib.ValueLayout
import Idealize.ShloMosaic.PureOps.Ideal.Laws
import proofs.«161832_j61529701482519_2_alg».proof.Proof.LibDense
import proofs.«161832_j61529701482519_2_alg».proof.Proof.LibHostDense

noncomputable section

namespace Cert.Sage

open Idealize.ShloMosaic Idealize.ShloMosaic.ValueIdx

/-- What the dimension numbers "rows of an [R, K] array times columns of a [K, N] array, one contracted axis" say,
    coordinate by coordinate: the contraction index has one axis of extent K; the left operand is read at
    (row, k), the right one at (k, column). -/
structure RowsByCols {R K N : ℕ} (d : DotDims ⟨2, ![R, K]⟩ ⟨2, ![K, N]⟩ ⟨2, ![R, N]⟩) : Prop where
  rank : d.contr.rank = 1
  size : d.contr.size ⟨0, by omega⟩ = K
  lhs0 : ∀ (j : (⟨2, ![R, N]⟩ : Shape).Idx) (q : d.contr.Idx), (d.lhsIdx j q 0).val = (j 0).val
  lhs1 : ∀ (j : (⟨2, ![R, N]⟩ : Shape).Idx) (q : d.contr.Idx), (d.lhsIdx j q 1).val = (q ⟨0, by omega⟩).val
  rhs0 : ∀ (j : (⟨2, ![R, N]⟩ : Shape).Idx) (q : d.contr.Idx), (d.rhsIdx j q 0).val = (q ⟨0, by omega⟩).val
  rhs1 : ∀ (j : (⟨2, ![R, N]⟩ : Shape).Idx) (q : d.contr.Idx), (d.rhsIdx j q 1).val = (j 1).val

/-- Entry (p, q) of the layer; the bias is held as a [1, N] row. -/
def entry {M K N : ℕ} (mean x : FVec Ideal ⟨2, ![M, K]⟩ .f32) (wl wr : FVec Ideal ⟨2, ![K, N]⟩ .f32)
    (brow : FVec Ideal ⟨2, ![1, N]⟩ .f32) (p : Fin M) (q : Fin N) : EReal :=
  (∑ k : Fin K, mean (ix2 p k) * wl (ix2 k q)) + (∑ k : Fin K, x (ix2 p k) * wr (ix2 k q)) + brow (ix2 (0 : Fin 1) q)

/-- The layer as a whole array. -/
def conv {M K N : ℕ} (mean x : FVec Ideal ⟨2, ![M, K]⟩ .f32) (wl wr : FVec Ideal ⟨2, ![K, N]⟩ .f32)
    (brow : FVec Ideal ⟨2, ![1, N]⟩ .f32) : FVec Ideal ⟨2, ![M, N]⟩ .f32 :=
  fun i => entry mean x wl wr brow (i 0) (i 1)

/-- The layer followed by the clamp below at zero. -/
def convRelu {M K N : ℕ} (mean x : FVec Ideal ⟨2, ![M, K]⟩ .f32) (wl wr : FVec Ideal ⟨2, ![K, N]⟩ .f32)
    (brow : FVec Ideal ⟨2, ![1, N]⟩ .f32) : FVec Ideal ⟨2, ![M, N]⟩ .f32 :=
  fun i => max (entry mean x wl wr brow (i 0) (i 1)) (Ideal.ofBits .f32 0x00000000#32)

theorem conv_apply {M K N : ℕ} (mean x : FVec Ideal ⟨2, ![M, K]⟩ .f32) (wl wr : FVec Ideal ⟨2, ![K, N]⟩ .f32)
    (brow : FVec Ideal ⟨2, ![1, N]⟩ .f32) (p : Fin M) (q : Fin N) :
    conv mean x wl wr brow (ix2 p q) = entry mean x wl wr brow p q := rfl

theorem convRelu_apply {M K N : ℕ} (mean x : FVec Ideal ⟨2, ![M, K]⟩ .f32) (wl wr : FVec Ideal ⟨2, ![K, N]⟩ .f32)
    (brow : FVec Ideal ⟨2, ![1, N]⟩ .f32) (p : Fin M) (q : Fin N) :
    convRelu mean x wl wr brow (ix2 p q) = max (entry mean x wl wr brow p q) (Ideal.ofBits .f32 0x00000000#32) := rfl

/-- An entry depends on row p of `mean` and of `x` only: a block of rows gives the entry the whole arrays give at
    the row the block's row p' sits at. -/
theorem entry_congr {M M' K N : ℕ} (mean x : FVec Ideal ⟨2, ![M, K]⟩ .f32) (mean' x' : FVec Ideal ⟨2, ![M', K]⟩ .f32)
    (wl wr : FVec Ideal ⟨2, ![K, N]⟩ .f32) (brow : FVec Ideal ⟨2, ![1, N]⟩ .f32) (p : Fin M) (p' : Fin M') (q : Fin N)
    (hm : ∀ k : Fin K, mean (ix2 p k) = mean' (ix2 p' k)) (hx : ∀ k : Fin K, x (ix2 p k) = x' (ix2 p' k)) :
    entry mean x wl wr brow p q = entry mean' x' wl wr brow p' q := by
  unfold entry
  have e1 : (∑ k : Fin K, mean (ix2 p k) * wl (ix2 k q)) = ∑ k : Fin K, mean' (ix2 p' k) * wl (ix2 k q) :=
    Finset.sum_congr rfl fun k _ => by rw [hm k]
  have e2 : (∑ k : Fin K, x (ix2 p k) * wr (ix2 k q)) = ∑ k : Fin K, x' (ix2 p' k) * wr (ix2 k q) :=
    Finset.sum_congr rfl fun k _ => by rw [hx k]
  rw [e1, e2]

/-- A matrix product into a zero accumulator read at (p, q), whatever formats the operands are held in (over the
    extended reals a change of format changes nothing). -/
theorem matmul_at {R K N : ℕ} {φ₁ φ₂ : FTy} (d : DotDims ⟨2, ![R, K]⟩ ⟨2, ![K, N]⟩ ⟨2, ![R, N]⟩) (hd : RowsByCols d)
    (a : FVec Ideal ⟨2, ![R, K]⟩ φ₁) (w : FVec Ideal ⟨2, ![K, N]⟩ φ₂) (p : Fin R) (q : Fin N) :
    matmul d none a w (constant (F := Ideal) ⟨2, ![R, N]⟩ .f32 0x00000000#32) (ix2 p q) = ∑ k : Fin K, a (ix2 p k) * w (ix2 k q) :=
  Cert.Dense.matmul_rows d hd.rank hd.size hd.lhs0 hd.lhs1 hd.rhs0 hd.rhs1 a w p q

/-- The body's arithmetic at (p, q) of a block: the two products into zero accumulators added, then the bias row
    repeated over the rows added. -/
theorem body_entry {R K N : ℕ} {φ₁ φ₂ : FTy} (d : DotDims ⟨2, ![R, K]⟩ ⟨2, ![K, N]⟩ ⟨2, ![R, N]⟩) (hd : RowsByCols d)
    (a c : FVec Ideal ⟨2, ![R, K]⟩ φ₁) (wl wr : FVec Ideal ⟨2, ![K, N]⟩ φ₂) (brow : FVec Ideal ⟨2, ![1, N]⟩ .f32)
    (hb : (⟨2, ![1, N]⟩ : Shape).Broadcasts ⟨2, ![R, N]⟩) (p : Fin R) (q : Fin N) :
    addf (addf (matmul d none a wl (constant (F := Ideal) ⟨2, ![R, N]⟩ .f32 0x00000000#32))
        (matmul d none c wr (constant (F := Ideal) ⟨2, ![R, N]⟩ .f32 0x00000000#32)))
      (broadcastTo ⟨2, ![R, N]⟩ brow hb) (ix2 p q)
    = entry a c wl wr brow p q := by
  rw [addf_apply, addf_apply, matmul_at d hd, matmul_at d hd, broadcastTo_1b_ab_apply]
  rfl

/-- The same followed by the maximum with the zero scalar spread over the block. -/
theorem body_entry_relu {R K N : ℕ} {φ₁ φ₂ : FTy} (d : DotDims ⟨2, ![R, K]⟩ ⟨2, ![K, N]⟩ ⟨2, ![R, N]⟩) (hd : RowsByCols d)
    (a c : FVec Ideal ⟨2, ![R, K]⟩ φ₁) (wl wr : FVec Ideal ⟨2, ![K, N]⟩ φ₂) (brow : FVec Ideal ⟨2, ![1, N]⟩ .f32)
    (hb : (⟨2, ![1, N]⟩ : Shape).Broadcasts ⟨2, ![R, N]⟩) (p : Fin R) (q : Fin N) :
    maximumf (addf (addf (matmul d none a wl (constant (F := Ideal) ⟨2, ![R, N]⟩ .f32 0x00000000#32))
        (matmul d none c wr (constant (F := Ideal) ⟨2, ![R, N]⟩ .f32 0x00000000#32)))
      (broadcastTo ⟨2, ![R, N]⟩ brow hb)) (broadcast ⟨2, ![R, N]⟩ (Scalar.ofBits (F := Ideal) .f32 0x00000000#32)) (ix2 p q)
    = max (entry a c wl wr brow p q) (Ideal.ofBits .f32 0x00000000#32) := by
  rw [maximumf_apply, broadcast_apply, body_entry d hd]
  rfl

/-- The host's spelling of the layer — first product plus the bias (placed along axis 1 of a row and repeated down
    the rows), then plus the second product — is the layer with the bias vector viewed as a [1, N] row:
    (A + b) + B = (A + B) + b on the extended reals. -/
theorem host_conv {M K N : ℕ} (d : DotDims ⟨2, ![M, K]⟩ ⟨2, ![K, N]⟩ ⟨2, ![M, N]⟩) (hd : RowsByCols d)
    (mean x : FVec Ideal ⟨2, ![M, K]⟩ .f32) (wl wr : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (addf (Host.dotGeneral (F := Ideal) d none mean wl)
        (broadcastInDim ⟨2, ![M, N]⟩ ![0, 1] h2 (broadcastInDim ⟨2, ![1, N]⟩ ![1] h1 b)))
      (Host.dotGeneral (F := Ideal) d none x wr)
    = conv mean x wl wr (shapeCast ⟨2, ![1, N]⟩ b hc) := by
  funext i
  obtain ⟨p, q, rfl⟩ : ∃ (p : Fin M) (q : Fin N), i = ix2 p q := ⟨i 0, i 1, eq_ix2 i⟩
  rw [addf_apply, addf_apply,
    Cert.HostDense.dotGeneral_rows d hd.rank hd.size hd.lhs0 hd.lhs1 hd.rhs0 hd.rhs1,
    Cert.HostDense.dotGeneral_rows d hd.rank hd.size hd.lhs0 hd.lhs1 hd.rhs0 hd.rhs1,
    Cert.HostDense.rowOfVector_apply, conv_apply]
  unfold entry
  rw [shapeCast_a_1a_apply]
  exact add_right_comm _ _ _

/-- The host's layer followed by its maximum with the zero constant spread over the array. -/
theorem host_convRelu {M K N : ℕ} (d : DotDims ⟨2, ![M, K]⟩ ⟨2, ![K, N]⟩ ⟨2, ![M, N]⟩) (hd : RowsByCols d)
    (mean x : FVec Ideal ⟨2, ![M, K]⟩ .f32) (wl wr : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩)
    (h0 : (⟨0, ![]⟩ : Shape).BroadcastsInDim ⟨2, ![M, N]⟩ (![] : Fin 0 → Fin 2)) :
    maximumf (addf (addf (Host.dotGeneral (F := Ideal) d none mean wl)
        (broadcastInDim ⟨2, ![M, N]⟩ ![0, 1] h2 (broadcastInDim ⟨2, ![1, N]⟩ ![1] h1 b)))
      (Host.dotGeneral (F := Ideal) d none x wr))
      (broadcastInDim ⟨2, ![M, N]⟩ ![] h0 (constant (F := Ideal) ⟨0, ![]⟩ .f32 0x00000000#32))
    = convRelu mean x wl wr (shapeCast ⟨2, ![1, N]⟩ b hc) := by
  funext i
  rw [Cert.HostDense.maxZero_apply, host_conv d hd mean x wl wr b h1 h2 hc]
  rfl

end Cert.Sage

end
-- ==== Proof.LibLayers.lean ====
/-
  The network's three layer forms, entry by entry, over the extended reals and over arbitrary extents.

  * A linear layer: entry (p, q) of x · w + bias is  ∑ k, x p k · w k q + bias q.
  * An update layer: the node's own features go through one matrix, the sum of its neighbours' messages, scaled by the
    row's weight (the reciprocal of the neighbour count), through another; bias added, clamped below at zero:
    max (∑ k, x p k · wt k q + ∑ k, (s p k · inv p) · wb k q + bias q) 0.
  * A linear layer followed by the clamp.

  Each entry reads row p of the row-indexed operands only, so a block of rows gives the entries the whole arrays give.
  The kernels' vector arithmetic (products into zero accumulators, a bias row repeated over the rows, a column repeated
  over the lanes, a maximum with a zero splat; changes of float format change nothing here) is read at one index as
  these entries.
-/
import Idealize.ShloMosaic.Lib.Pipeline.Value
import Idealize.ShloMosaic.Lib.ValueIdx
import Idealize.ShloMosaic.Lib.ValueLayout
import Idealize.ShloMosaic.PureOps.Ideal.Laws
import proofs.«161832_j61529701482519_2_alg».proof.Proof.LibKeepdims
import proofs.«161832_j61529701482519_2_alg».proof.Proof.LibDense
import proofs.«161832_j61529701482519_2_alg».proof.Proof.LibHostDense
import proofs.«161832_j61529701482519_2_alg».proof.Proof.LibSage

noncomputable section

namespace Cert.Net

open Idealize.ShloMosaic Idealize.ShloMosaic.ValueIdx

/-- Entry (p, q) of x · w + bias, the bias held as a [1, N] row. -/
def linAt {R K N : ℕ} (x : FVec Ideal ⟨2, ![R, K]⟩ .f32) (w : FVec Ideal ⟨2, ![K, N]⟩ .f32)
    (brow : FVec Ideal ⟨2, ![1, N]⟩ .f32) (p : Fin R) (q : Fin N) : EReal :=
  (∑ k : Fin K, x (ix2 p k) * w (ix2 k q)) + brow (ix2 (0 : Fin 1) q)

/-- The linear layer as a whole array. -/
def lin {R K N : ℕ} (x : FVec Ideal ⟨2, ![R, K]⟩ .f32) (w : FVec Ideal ⟨2, ![K, N]⟩ .f32)
    (brow : FVec Ideal ⟨2, ![1, N]⟩ .f32) : FVec Ideal ⟨2, ![R, N]⟩ .f32 :=
  fun i => linAt x w brow (i 0) (i 1)

/-- The linear layer followed by the clamp below at zero. -/
def reluLin {R K N : ℕ} (x : FVec Ideal ⟨2, ![R, K]⟩ .f32) (w : FVec Ideal ⟨2, ![K, N]⟩ .f32)
    (brow : FVec Ideal ⟨2, ![1, N]⟩ .f32) : FVec Ideal ⟨2, ![R, N]⟩ .f32 :=
  fun i => max (linAt x w brow (i 0) (i 1)) (Ideal.ofBits .f32 0x00000000#32)

/-- Entry (p, q) of the update layer. -/
def updAt {R K1 K2 N : ℕ} (x : FVec Ideal ⟨2, ![R, K1]⟩ .f32) (s : FVec Ideal ⟨2, ![R, K2]⟩ .f32)
    (inv : FVec Ideal ⟨2, ![R, 1]⟩ .f32) (wt : FVec Ideal ⟨2, ![K1, N]⟩ .f32) (wb : FVec Ideal ⟨2, ![K2, N]⟩ .f32)
    (brow : FVec Ideal ⟨2, ![1, N]⟩ .f32) (p : Fin R) (q : Fin N) : EReal :=
  max (((∑ k : Fin K1, x (ix2 p k) * wt (ix2 k q))
        + ∑ k : Fin K2, (s (ix2 p k) * inv (ix2 p (0 : Fin 1))) * wb (ix2 k q))
      + brow (ix2 (0 : Fin 1) q)) (Ideal.ofBits .f32 0x00000000#32)

/-- The update layer as a whole array. -/
def upd {R K1 K2 N : ℕ} (x : FVec Ideal ⟨2, ![R, K1]⟩ .f32) (s : FVec Ideal ⟨2, ![R, K2]⟩ .f32)
    (inv : FVec Ideal ⟨2, ![R, 1]⟩ .f32) (wt : FVec Ideal ⟨2, ![K1, N]⟩ .f32) (wb : FVec Ideal ⟨2, ![K2, N]⟩ .f32)
    (brow : FVec Ideal ⟨2, ![1, N]⟩ .f32) : FVec Ideal ⟨2, ![R, N]⟩ .f32 :=
  fun i => updAt x s inv wt wb brow (i 0) (i 1)

theorem lin_apply {R K N : ℕ} (x : FVec Ideal ⟨2, ![R, K]⟩ .f32) (w : FVec Ideal ⟨2, ![K, N]⟩ .f32)
    (brow : FVec Ideal ⟨2, ![1, N]⟩ .f32) (p : Fin R) (q : Fin N) : lin x w brow (ix2 p q) = linAt x w brow p q := rfl

theorem reluLin_apply {R K N : ℕ} (x : FVec Ideal ⟨2, ![R, K]⟩ .f32) (w : FVec Ideal ⟨2, ![K, N]⟩ .f32)
    (brow : FVec Ideal ⟨2, ![1, N]⟩ .f32) (p : Fin R) (q : Fin N) :
    reluLin x w brow (ix2 p q) = max (linAt x w brow p q) (Ideal.ofBits .f32 0x00000000#32) := rfl

theorem upd_apply {R K1 K2 N : ℕ} (x : FVec Ideal ⟨2, ![R, K1]⟩ .f32) (s : FVec Ideal ⟨2, ![R, K2]⟩ .f32)
    (inv : FVec Ideal ⟨2, ![R, 1]⟩ .f32) (wt : FVec Ideal ⟨2, ![K1, N]⟩ .f32) (wb : FVec Ideal ⟨2, ![K2, N]⟩ .f32)
    (brow : FVec Ideal ⟨2, ![1, N]⟩ .f32) (p : Fin R) (q : Fin N) :
    upd x s inv wt wb brow (ix2 p q) = updAt x s inv wt wb brow p q := rfl

/-- A linear entry reads row p of x only: a block of rows against the whole array. -/
theorem linAt_congr {R R' K N : ℕ} (x : FVec Ideal ⟨2, ![R, K]⟩ .f32) (x' : FVec Ideal ⟨2, ![R', K]⟩ .f32)
    (w w' : FVec Ideal ⟨2, ![K, N]⟩ .f32) (b b' : FVec Ideal ⟨2, ![1, N]⟩ .f32) (p : Fin R) (p' : Fin R') (q : Fin N)
    (hx : ∀ k : Fin K, x (ix2 p k) = x' (ix2 p' k)) (hw : w = w') (hb : b = b') :
    linAt x w b p q = linAt x' w' b' p' q := by
  subst hw; subst hb
  unfold linAt
  have e1 : (∑ k : Fin K, x (ix2 p k) * w (ix2 k q)) = ∑ k : Fin K, x' (ix2 p' k) * w (ix2 k q) :=
    Finset.sum_congr rfl fun k _ => by rw [hx k]
  rw [e1]

/-- An update entry reads row p of x, of s and of the weight column only. -/
theorem updAt_congr {R R' K1 K2 N : ℕ} (x : FVec Ideal ⟨2, ![R, K1]⟩ .f32) (x' : FVec Ideal ⟨2, ![R', K1]⟩ .f32)
    (s : FVec Ideal ⟨2, ![R, K2]⟩ .f32) (s' : FVec Ideal ⟨2, ![R', K2]⟩ .f32)
    (inv : FVec Ideal ⟨2, ![R, 1]⟩ .f32) (inv' : FVec Ideal ⟨2, ![R', 1]⟩ .f32)
    (wt wt' : FVec Ideal ⟨2, ![K1, N]⟩ .f32) (wb wb' : FVec Ideal ⟨2, ![K2, N]⟩ .f32) (b b' : FVec Ideal ⟨2, ![1, N]⟩ .f32)
    (p : Fin R) (p' : Fin R') (q : Fin N)
    (hx : ∀ k : Fin K1, x (ix2 p k) = x' (ix2 p' k)) (hs : ∀ k : Fin K2, s (ix2 p k) = s' (ix2 p' k))
    (hi : inv (ix2 p (0 : Fin 1)) = inv' (ix2 p' (0 : Fin 1))) (hwt : wt = wt') (hwb : wb = wb') (hb : b = b') :
    updAt x s inv wt wb b p q = updAt x' s' inv' wt' wb' b' p' q := by
  subst hwt; subst hwb; subst hb
  unfold updAt
  have e1 : (∑ k : Fin K1, x (ix2 p k) * wt (ix2 k q)) = ∑ k : Fin K1, x' (ix2 p' k) * wt (ix2 k q) :=
    Finset.sum_congr rfl fun k _ => by rw [hx k]
  have e2 : (∑ k : Fin K2, (s (ix2 p k) * inv (ix2 p (0 : Fin 1))) * wb (ix2 k q))
      = ∑ k : Fin K2, (s' (ix2 p' k) * inv' (ix2 p' (0 : Fin 1))) * wb (ix2 k q) :=
    Finset.sum_congr rfl fun k _ => by rw [hs k, hi]
  rw [e1, e2]

/-- The column of row weights: the reciprocal 1 / c r of each row's normalizer. -/
def recipCol {R : ℕ} (c : FVec Ideal ⟨1, ![R]⟩ .f32) : FVec Ideal ⟨2, ![R, 1]⟩ .f32 :=
  fun i => Ideal.div (Ideal.ofBits .f32 0x3F800000#32) (c (ix1 (i 0)))

/-- The first K1 rows of a matrix. -/
def topRows {K N : ℕ} (K1 : ℕ) (h : K1 ≤ K) (w : FVec Ideal ⟨2, ![K, N]⟩ .f32) : FVec Ideal ⟨2, ![K1, N]⟩ .f32 :=
  fun i => w (ix2 ⟨(i 0).val, lt_of_lt_of_le (i 0).isLt h⟩ (i 1))

/-- Rows K1 … K1 + K2 − 1 of a matrix. -/
def botRows {K N : ℕ} (K1 K2 : ℕ) (h : K1 + K2 ≤ K) (w : FVec Ideal ⟨2, ![K, N]⟩ .f32) : FVec Ideal ⟨2, ![K2, N]⟩ .f32 :=
  fun i => w (ix2 ⟨K1 + (i 0).val, lt_of_lt_of_le (Nat.add_lt_add_left (i 0).isLt K1) h⟩ (i 1))

variable {α : Type}

/-- The cut of the first K1 rows. -/
theorem slice_top {K N K1 : ℕ} (w : FVec Ideal ⟨2, ![K, N]⟩ .f32)
    (h : (⟨2, ![K, N]⟩ : Shape).Slices ![0, 0] ⟨2, ![K1, N]⟩) (hle : K1 ≤ K) :
    extractStridedSlice ⟨2, ![K1, N]⟩ ![0, 0] w h = topRows K1 hle w := by
  funext i
  obtain ⟨j, e, rfl⟩ : ∃ (j : Fin K1) (e : Fin N), i = ix2 j e := ⟨i 0, i 1, eq_ix2 i⟩
  rw [slice2_axis0_eq]
  exact congrArg w (congrArg (fun r => ix2 r e) (Fin.ext (Nat.zero_add _)))

/-- The cut of K2 rows from row K1 on. -/
theorem slice_bot {K N K1 K2 : ℕ} (w : FVec Ideal ⟨2, ![K, N]⟩ .f32)
    (h : (⟨2, ![K, N]⟩ : Shape).Slices ![K1, 0] ⟨2, ![K2, N]⟩) (hle : K1 + K2 ≤ K) :
    extractStridedSlice ⟨2, ![K2, N]⟩ ![K1, 0] w h = botRows K1 K2 hle w := by
  funext i
  obtain ⟨j, e, rfl⟩ : ∃ (j : Fin K2) (e : Fin N), i = ix2 j e := ⟨i 0, i 1, eq_ix2 i⟩
  rw [slice2_axis0_eq]
  rfl

/-- The constant 1 spread over a vector, divided by the normalizer and viewed as a column: the reciprocal column. -/
theorem recipCol_eq {R : ℕ} (c : FVec Ideal ⟨1, ![R]⟩ .f32)
    (h0 : (⟨0, ![]⟩ : Shape).BroadcastsInDim ⟨1, ![R]⟩ (![] : Fin 0 → Fin 1))
    (hc : (⟨1, ![R]⟩ : Shape).ShapeCasts ⟨2, ![R, 1]⟩) :
    shapeCast ⟨2, ![R, 1]⟩ (Host.divf (F := Ideal)
        (broadcastInDim ⟨1, ![R]⟩ ![] h0 (constant (F := Ideal) ⟨0, ![]⟩ .f32 0x3F800000#32)) c) hc
      = recipCol c := by
  funext i
  obtain ⟨p, q, rfl⟩ : ∃ (p : Fin R) (q : Fin 1), i = ix2 p q := ⟨i 0, i 1, eq_ix2 i⟩
  rw [Cert.Keepdims.shapeCast_a_a1_apply]
  show Ideal.div (broadcastInDim ⟨1, ![R]⟩ ![] h0 (constant (F := Ideal) ⟨0, ![]⟩ .f32 0x3F800000#32) (ix1 p)) (c (ix1 p)) = _
  rw [broadcastInDim_apply ![] h0 _ (ix1 p) ix0 (fun a => a.elim0), constant_apply]
  rfl

/-! ## The kernels' arithmetic at one index -/

/-- A product into a zero accumulator plus the bias row repeated over the rows, at (p, q): a linear entry. The operands
    may be held in any float format. -/
theorem lin_body {R K N : ℕ} {φ₁ φ₂ : FTy} (d : DotDims ⟨2, ![R, K]⟩ ⟨2, ![K, N]⟩ ⟨2, ![R, N]⟩) (hd : Cert.Sage.RowsByCols d)
    (a : FVec Ideal ⟨2, ![R, K]⟩ φ₁) (w : FVec Ideal ⟨2, ![K, N]⟩ φ₂) (brow : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (q : Fin N) :
    addf (matmul d none a w (constant (F := Ideal) ⟨2, ![R, N]⟩ .f32 0x00000000#32))
      (broadcastTo ⟨2, ![R, N]⟩ (shapeCast ⟨2, ![1, N]⟩ brow hc) hb) (ix2 p q)
    = linAt a w brow p q := by
  rw [addf_apply, Cert.Sage.matmul_at d hd, broadcastTo_1b_ab_apply, shapeCast_self]
  rfl

/-- The same followed by the maximum with the zero scalar spread over the block. -/
theorem reluLin_body {R K N : ℕ} {φ₁ φ₂ : FTy} (d : DotDims ⟨2, ![R, K]⟩ ⟨2, ![K, N]⟩ ⟨2, ![R, N]⟩) (hd : Cert.Sage.RowsByCols d)
    (a : FVec Ideal ⟨2, ![R, K]⟩ φ₁) (w : FVec Ideal ⟨2, ![K, N]⟩ φ₂) (brow : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (q : Fin N) :
    maximumf (addf (matmul d none a w (constant (F := Ideal) ⟨2, ![R, N]⟩ .f32 0x00000000#32))
        (broadcastTo ⟨2, ![R, N]⟩ (shapeCast ⟨2, ![1, N]⟩ brow hc) hb))
      (broadcast ⟨2, ![R, N]⟩ (Scalar.ofBits (F := Ideal) .f32 0x00000000#32)) (ix2 p q)
    = max (linAt a w brow p q) (Ideal.ofBits .f32 0x00000000#32) := by
  rw [maximumf_apply, broadcast_apply, lin_body d hd]
  rfl

/-- The update body at (p, q): the product of the node's rows, plus the product of the message sums each scaled by its
    row's weight (a column repeated over the lanes), plus the bias row, clamped below at zero. -/
theorem upd_body {R K1 K2 N : ℕ} {φ₁ φ₂ φ₃ ψ : FTy}
    (d1 : DotDims ⟨2, ![R, K1]⟩ ⟨2, ![K1, N]⟩ ⟨2, ![R, N]⟩) (hd1 : Cert.Sage.RowsByCols d1)
    (d2 : DotDims ⟨2, ![R, K2]⟩ ⟨2, ![K2, N]⟩ ⟨2, ![R, N]⟩) (hd2 : Cert.Sage.RowsByCols d2)
    (x : FVec Ideal ⟨2, ![R, K1]⟩ φ₁) (wt : FVec Ideal ⟨2, ![K1, N]⟩ φ₂)
    (s : FVec Ideal ⟨2, ![R, K2]⟩ .f32) (inv : FVec Ideal ⟨2, ![R, 1]⟩ .f32) (wb : FVec Ideal ⟨2, ![K2, N]⟩ φ₃)
    (brow : FVec Ideal ⟨2, ![1, N]⟩ .f32)
    (hbi : (⟨2, ![R, 1]⟩ : Shape).Broadcasts ⟨2, ![R, K2]⟩) (hψ : ψ.bits < FTy.f32.bits)
    (hc : (⟨2, ![1, N]⟩ : Shape).ShapeCasts ⟨2, ![1, N]⟩) (hb : (⟨2, ![1, N]⟩ : Shape).Broadcasts ⟨2, ![R, N]⟩)
    (p : Fin R) (q : Fin N) :
    maximumf (addf (addf (matmul d1 none x wt (constant (F := Ideal) ⟨2, ![R, N]⟩ .f32 0x00000000#32))
          (matmul d2 none (truncf ψ (mulf s (broadcastTo ⟨2, ![R, K2]⟩ inv hbi)) hψ) wb
            (constant (F := Ideal) ⟨2, ![R, N]⟩ .f32 0x00000000#32)))
        (broadcastTo ⟨2, ![R, N]⟩ (shapeCast ⟨2, ![1, N]⟩ brow hc) hb))
      (broadcast ⟨2, ![R, N]⟩ (Scalar.ofBits (F := Ideal) .f32 0x00000000#32)) (ix2 p q)
    = updAt x s inv wt wb brow p q := by
  rw [maximumf_apply, broadcast_apply, addf_apply, addf_apply, Cert.Sage.matmul_at d1 hd1, Cert.Sage.matmul_at d2 hd2,
    broadcastTo_1b_ab_apply, shapeCast_self]
  unfold updAt
  simp only [truncf_apply, mulf_apply, Cert.Keepdims.broadcastTo_a1_ab_apply]
  rfl

end Cert.Net

end
-- ==== Proof.KDims.lean ====
/-
  The dimension numbers of the kernels' seven matrix products, coordinate by coordinate: each contracts the last axis
  of its left operand with the first axis of its right operand, so the contraction index has one axis, the left operand
  is read at (row, k) and the right one at (k, column).
-/
import proofs.«161832_j61529701482519_2_alg».proof.Proof.Gen.KernelIdeal
import proofs.«161832_j61529701482519_2_alg».proof.Proof.LibSage

noncomputable section

namespace Cert.KernelIdeal.Dims

open Cert.KernelIdeal Idealize.ShloMosaic

theorem rbc_S5000x256_S256x64_S5000x64 : Cert.Sage.RowsByCols dot_S5000x256_S256x64_S5000x64_1_0_0_1_n_n where
  rank := rfl
  size := rfl
  lhs0 := fun i q => by
    unfold DotDims.lhsIdx
    rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
    rfl
  lhs1 := fun i q => dot_S5000x256_S256x64_S5000x64_1_0_0_1_n_n.lhsIdx_val_of_single rfl i q
  rhs0 := fun i q => dot_S5000x256_S256x64_S5000x64_1_0_0_1_n_n.rhsIdx_val_of_single rfl i q
  rhs1 := fun i q => by
    unfold DotDims.rhsIdx
    rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
    rfl

theorem rbc_S5000x256_S256x128_S5000x128 : Cert.Sage.RowsByCols dot_S5000x256_S256x128_S5000x128_1_0_0_1_n_n where
  rank := rfl
  size := rfl
  lhs0 := fun i q => by
    unfold DotDims.lhsIdx
    rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
    rfl
  lhs1 := fun i q => dot_S5000x256_S256x128_S5000x128_1_0_0_1_n_n.lhsIdx_val_of_single rfl i q
  rhs0 := fun i q => dot_S5000x256_S256x128_S5000x128_1_0_0_1_n_n.rhsIdx_val_of_single rfl i q
  rhs1 := fun i q => by
    unfold DotDims.rhsIdx
    rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
    rfl

theorem rbc_S5000x64_S64x128_S5000x128 : Cert.Sage.RowsByCols dot_S5000x64_S64x128_S5000x128_1_0_0_1_n_n where
  rank := rfl
  size := rfl
  lhs0 := fun i q => by
    unfold DotDims.lhsIdx
    rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
    rfl
  lhs1 := fun i q => dot_S5000x64_S64x128_S5000x128_1_0_0_1_n_n.lhsIdx_val_of_single rfl i q
  rhs0 := fun i q => dot_S5000x64_S64x128_S5000x128_1_0_0_1_n_n.rhsIdx_val_of_single rfl i q
  rhs1 := fun i q => by
    unfold DotDims.rhsIdx
    rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
    rfl

theorem rbc_S5000x128_S128x64_S5000x64 : Cert.Sage.RowsByCols dot_S5000x128_S128x64_S5000x64_1_0_0_1_n_n where
  rank := rfl
  size := rfl
  lhs0 := fun i q => by
    unfold DotDims.lhsIdx
    rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
    rfl
  lhs1 := fun i q => dot_S5000x128_S128x64_S5000x64_1_0_0_1_n_n.lhsIdx_val_of_single rfl i q
  rhs0 := fun i q => dot_S5000x128_S128x64_S5000x64_1_0_0_1_n_n.rhsIdx_val_of_single rfl i q
  rhs1 := fun i q => by
    unfold DotDims.rhsIdx
    rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
    rfl

theorem rbc_S5000x64_S64x64_S5000x64 : Cert.Sage.RowsByCols dot_S5000x64_S64x64_S5000x64_1_0_0_1_n_n where
  rank := rfl
  size := rfl
  lhs0 := fun i q => by
    unfold DotDims.lhsIdx
    rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
    rfl
  lhs1 := fun i q => dot_S5000x64_S64x64_S5000x64_1_0_0_1_n_n.lhsIdx_val_of_single rfl i q
  rhs0 := fun i q => dot_S5000x64_S64x64_S5000x64_1_0_0_1_n_n.rhsIdx_val_of_single rfl i q
  rhs1 := fun i q => by
    unfold DotDims.rhsIdx
    rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
    rfl

theorem rbc_S5000x64_S64x32_S5000x32 : Cert.Sage.RowsByCols dot_S5000x64_S64x32_S5000x32_1_0_0_1_n_n where
  rank := rfl
  size := rfl
  lhs0 := fun i q => by
    unfold DotDims.lhsIdx
    rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
    rfl
  lhs1 := fun i q => dot_S5000x64_S64x32_S5000x32_1_0_0_1_n_n.lhsIdx_val_of_single rfl i q
  rhs0 := fun i q => dot_S5000x64_S64x32_S5000x32_1_0_0_1_n_n.rhsIdx_val_of_single rfl i q
  rhs1 := fun i q => by
    unfold DotDims.rhsIdx
    rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
    rfl

theorem rbc_S5000x32_S32x1_S5000x1 : Cert.Sage.RowsByCols dot_S5000x32_S32x1_S5000x1_1_0_0_1_n_n where
  rank := rfl
  size := rfl
  lhs0 := fun i q => by
    unfold DotDims.lhsIdx
    rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
    rfl
  lhs1 := fun i q => dot_S5000x32_S32x1_S5000x1_1_0_0_1_n_n.lhsIdx_val_of_single rfl i q
  rhs0 := fun i q => dot_S5000x32_S32x1_S5000x1_1_0_0_1_n_n.rhsIdx_val_of_single rfl i q
  rhs1 := fun i q => by
    unfold DotDims.rhsIdx
    rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
    rfl

end Cert.KernelIdeal.Dims

end
-- ==== Proof.Region0.lean ====
/-
  What the first grid of launches leaves in its output array.

  The grid has 20 points; point t reads rows 5000·t … 5000·t + 4999 of the [100000, 256] feature array, the whole
  [256, 64] weight matrix and the whole [1, 64] bias row, and writes rows 5000·t … of the [100000, 64] output. Entry
  (p, q) of the block it writes is  ∑ k, x (5000·t + p) k · w k q + bias q,  which is entry (5000·t + p, q) of the
  linear layer of the whole arrays: an entry of a product reads one row of its left operand only. The 20 blocks tile the
  output, so after the grid the array holds the linear layer of the arrays the region found.
-/
import proofs.«161832_j61529701482519_2_alg».proof.Proof.Gen.KernelIdeal.Frame
import proofs.«161832_j61529701482519_2_alg».proof.Proof.LibLayers
import proofs.«161832_j61529701482519_2_alg».proof.Proof.KDims

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at (p, q) of a block: a linear entry of the loaded blocks. -/
theorem pay (x0 : Vec Ideal S5000x256 .f32) (x1 : Vec Ideal S256x64 .f32) (x2 : Vec Ideal S1x64 .f32) (p : Fin 5000) (q : Fin 64) :
    k0_pay1 (F := Ideal) x0 x1 x2 (ix2 p q) = Cert.Net.linAt x0 x1 x2 p q := by
  unfold k0_pay1
  exact Cert.Net.lin_body _ Cert.KernelIdeal.Dims.rbc_S5000x256_S256x64_S5000x64 _ _ x2 _ _ p q

/-- The printed index maps over the grid: the row block of the features and of the output is the point's number, every
    other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array the region leaves: the linear layer of the arrays it found. -/
abbrev G (c : Dev nD) : S100000x64.Idx → EReal :=
  Cert.Net.lin (V c main_arg0) (V c main_arg3) (V c main_v13)

/-- What point t writes back is block t of that array. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x64) hz, View.ld_unit_zero (S := S1x64) hz]
  obtain ⟨e00, e01, e10, e11, e20, e21, e30, e31⟩ := idx_facts t
  funext j
  obtain ⟨p, q, rfl⟩ : ∃ (p : Fin 5000) (q : Fin 64), j = ix2 p q := ⟨j 0, j 1, eq_ix2 j⟩
  refine (pay _ _ _ p q).trans ?_
  rw [View.read_apply]
  -- the column of the block's entry in the array is q; its row is 5000 t + p
  have hq : ((cfg0.win 3).blk t).view.emb (ix2 p q) 1 = q :=
    Fin.ext (by show win0_3.index t (1 : Fin 2) * 64 + 1 * q.val = q.val; omega)
  show Cert.Net.linAt _ _ _ p q
    = Cert.Net.linAt (V c main_arg0) (V c main_arg3) (V c main_v13) (((cfg0.win 3).blk t).view.emb (ix2 p q) 0)
        (((cfg0.win 3).blk t).view.emb (ix2 p q) 1)
  rw [hq]
  refine Cert.Net.linAt_congr _ _ _ _ _ _ p _ q (fun k => ?_) ?_ ?_
  · show V c main_arg0 (((cfg0.win 0).blk t).view.emb (ix2 p k)) = V c main_arg0 (ix2 (((cfg0.win 3).blk t).view.emb (ix2 p q) 0) k)
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 256 + 1 * k.val = k.val; omega
  · funext y
    show V c main_arg3 (((cfg0.win 1).blk t).view.emb y) = V c main_arg3 y
    refine congrArg (V c main_arg3) (funext fun a => Fin.ext ?_)
    match a with
    | ⟨0, _⟩ => show win0_1.index t (0 : Fin 2) * 256 + 1 * (y 0).val = (y 0).val; omega
    | ⟨1, _⟩ => show win0_1.index t (1 : Fin 2) * 64 + 1 * (y 1).val = (y 1).val; omega
  · funext y
    show V c main_v13 (((cfg0.win 2).blk t).view.emb y) = V c main_v13 y
    refine congrArg (V c main_v13) (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega

/-- An index of the output array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v14).slice (win0_3.rect t)).set ↔ _
  rw [View.set_slice_whole, Rect.mem_set_unit]
  exact Iff.rfl

/-- The 20 blocks tile the output: row r lies in the block of point r / 5000. -/
theorem cover (i : S100000x64.Idx) :
    ∃ t : Fin cfg0.N, (cfg0.win 3).flush t = true ∧ i ∈ ((cfg0.win 3).blk t).view.set := by
  have h0 : (i 0).val < 100000 := (i 0).isLt
  have h1 : (i 1).val < 64 := (i 1).isLt
  have ht : (i 0).val / 5000 < 20 := by omega
  refine ⟨⟨(i 0).val / 5000, ht⟩, flush0_3 _, ?_⟩
  rw [mem_blk]
  obtain ⟨e00, e01, e10, e11, e20, e21, e30, e31⟩ := idx_facts ⟨(i 0).val / 5000, ht⟩
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    omega

/-- After the grid the output array holds the linear layer of the arrays the region found. -/
theorem final (c : Dev nD) : (dat0 V c).arrAt 3 cfg0.N = G V c :=
  (dat0 V c).arrAt_eq_of_cover 3 (G V c) (fun t _ => flushed_eq V c t) cover

end Cert.KernelIdeal.Region0

end
-- ==== Proof.Region1.lean ====
/-
  What the second grid of launches leaves in its two output arrays.

  Point t reads rows 5000·t … of the feature array, of the aggregated first messages and of the weight column, and
  the whole of two weight matrices, two bias rows and the second message matrix. Row p of its first output block is the
  update layer's row for node 5000·t + p: the node's features through one matrix, its message sum times its weight
  through the other, bias, clamp. Row p of its second output block is the linear layer of that same update row. Every
  entry reads only row 5000·t + p of the row-indexed arrays, so each block is the block of one whole-array function, and
  the 20 blocks tile each output.
-/
import proofs.«161832_j61529701482519_2_alg».proof.Proof.Gen.KernelIdeal.Frame
import proofs.«161832_j61529701482519_2_alg».proof.Proof.LibLayers
import proofs.«161832_j61529701482519_2_alg».proof.Proof.KDims

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.Dims

variable (V : (c : Dev nD) → (b : Ref sig .tc) → Buf (Elt Ideal) ((c : Thread nD τ).loc b))

theorem hz : (![0, 0] : Fin 2 → Nat) = fun _ => 0 := funext fun a => by fin_cases a <;> rfl

/-- The first store's arithmetic at (p, q) of a block: an update entry of the loaded blocks. -/
theorem pay1 (x0 : Vec Ideal S5000x256 .f32) (x1 : Vec Ideal S5000x64 .f32) (x2 : Vec Ideal S5000x1 .f32)
    (x3 : Vec Ideal S256x128 .f32) (x4 : Vec Ideal S64x128 .f32) (x5 : Vec Ideal S1x128 .f32) (p : Fin 5000) (q : Fin 128) :
    k1_pay1 (F := Ideal) x0 x1 x2 x3 x4 x5 (ix2 p q) = Cert.Net.updAt x0 x1 x2 x3 x4 x5 p q := by
  unfold k1_pay1
  refine (Cert.Net.upd_body _ rbc_S5000x256_S256x128_S5000x128 _ rbc_S5000x64_S64x128_S5000x128 _ _ _ _ _ x5 _ _ _ _ p q).trans ?_
  simp only [shapeCast_self]
  rfl

/-- The second store's arithmetic at (p, q): a linear entry of the first store's rows. -/
theorem pay2 (x0 : Vec Ideal S5000x256 .f32) (x1 : Vec Ideal S5000x64 .f32) (x2 : Vec Ideal S5000x1 .f32)
    (x3 : Vec Ideal S256x128 .f32) (x4 : Vec Ideal S64x128 .f32) (x5 : Vec Ideal S1x128 .f32)
    (x6 : Vec Ideal S128x64 .f32) (x7 : Vec Ideal S1x64 .f32) (p : Fin 5000) (q : Fin 64) :
    k1_pay2 (F := Ideal) x0 x1 x2 x3 x4 x5 x6 x7 (ix2 p q)
      = Cert.Net.linAt (k1_pay1 (F := Ideal) x0 x1 x2 x3 x4 x5) x6 x7 p q := by
  unfold k1_pay2
  exact Cert.Net.lin_body _ rbc_S5000x128_S128x64_S5000x64 _ _ x7 _ _ p q

/-- The printed index maps over the grid: the row block of the three row-indexed inputs and of the two outputs is the
    point's number, every other block index is 0. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = t.val
    ∧ win1_8.index t (1 : Fin 2) = 0
    ∧ win1_9.index t (0 : Fin 2) = t.val
    ∧ win1_9.index t (1 : Fin 2) = 0 :=
  (by decide +kernel : ∀ t : Fin grid1.N, _)

/-- The first output: the update layer of the arrays the region found. -/
abbrev G8 (c : Dev nD) : S100000x128.Idx → EReal :=
  Cert.Net.upd (V c main_arg0) (V c main_v24) (V c main_v12) (V c main_v25) (V c main_v26) (V c main_v27)

/-- The second output: the linear layer of the first. -/
abbrev G9 (c : Dev nD) : S100000x64.Idx → EReal :=
  Cert.Net.lin (G8 V c) (V c main_arg7) (V c main_v28)

/-- Row p of point t's blocks against row r = 5000 t + p of the arrays: the update entries agree. -/
theorem blk_upd (c : Dev nD) (t : Fin cfg1.N) (p : Fin 5000) (r : Fin 100000) (hr : r.val = t.val * 5000 + p.val) (q : Fin 128) :
    Cert.Net.updAt (iblk1 V c 0 t) (iblk1 V c 1 t) (iblk1 V c 2 t) (iblk1 V c 3 t) (iblk1 V c 4 t) (iblk1 V c 5 t) p q
      = Cert.Net.updAt (V c main_arg0) (V c main_v24) (V c main_v12) (V c main_v25) (V c main_v26) (V c main_v27) r q := by
  obtain ⟨e0_0, e0_1, e1_0, e1_1, e2_0, e2_1, e3_0, e3_1, e4_0, e4_1, e5_0, e5_1, e6_0, e6_1, e7_0, e7_1, e8_0, e8_1, e9_0, e9_1⟩ := idx_facts t
  have hx0 : ∀ k : Fin 256, iblk1 V c 0 t (ix2 p k) = V c main_arg0 (ix2 r k) := fun k => by
    show V c main_arg0 (((cfg1.win 0).blk t).view.emb (ix2 p k)) = V c main_arg0 (ix2 r k)
    refine congrArg (V c main_arg0) (funext fun a => Fin.ext ?_)
    match a with
    | ⟨0, _⟩ => show win1_0.index t (0 : Fin 2) * 5000 + 1 * p.val = r.val; omega
    | ⟨1, _⟩ => show win1_0.index t (1 : Fin 2) * 256 + 1 * k.val = k.val; omega
  have hx1 : ∀ k : Fin 64, iblk1 V c 1 t (ix2 p k) = V c main_v24 (ix2 r k) := fun k => by
    show V c main_v24 (((cfg1.win 1).blk t).view.emb (ix2 p k)) = V c main_v24 (ix2 r k)
    refine congrArg (V c main_v24) (funext fun a => Fin.ext ?_)
    match a with
    | ⟨0, _⟩ => show win1_1.index t (0 : Fin 2) * 5000 + 1 * p.val = r.val; omega
    | ⟨1, _⟩ => show win1_1.index t (1 : Fin 2) * 64 + 1 * k.val = k.val; omega
  have hi : iblk1 V c 2 t (ix2 p (0 : Fin 1)) = V c main_v12 (ix2 r (0 : Fin 1)) := by
    show V c main_v12 (((cfg1.win 2).blk t).view.emb (ix2 p (0 : Fin 1))) = V c main_v12 (ix2 r (0 : Fin 1))
    refine congrArg (V c main_v12) (funext fun a => Fin.ext ?_)
    match a with
    | ⟨0, _⟩ => show win1_2.index t (0 : Fin 2) * 5000 + 1 * p.val = r.val; omega
    | ⟨1, _⟩ => show win1_2.index t (1 : Fin 2) * 1 + 1 * 0 = 0; omega
  have hw3 : iblk1 V c 3 t = V c main_v25 := by
    funext y
    show V c main_v25 (((cfg1.win 3).blk t).view.emb y) = V c main_v25 y
    refine congrArg (V c main_v25) (funext fun a => Fin.ext ?_)
    match a with
    | ⟨0, _⟩ => show win1_3.index t (0 : Fin 2) * 256 + 1 * (y 0).val = (y 0).val; omega
    | ⟨1, _⟩ => show win1_3.index t (1 : Fin 2) * 128 + 1 * (y 1).val = (y 1).val; omega
  have hw4 : iblk1 V c 4 t = V c main_v26 := by
    funext y
    show V c main_v26 (((cfg1.win 4).blk t).view.emb y) = V c main_v26 y
    refine congrArg (V c main_v26) (funext fun a => Fin.ext ?_)
    match a with
    | ⟨0, _⟩ => show win1_4.index t (0 : Fin 2) * 64 + 1 * (y 0).val = (y 0).val; omega
    | ⟨1, _⟩ => show win1_4.index t (1 : Fin 2) * 128 + 1 * (y 1).val = (y 1).val; omega
  have hw5 : iblk1 V c 5 t = V c main_v27 := by
    funext y
    show V c main_v27 (((cfg1.win 5).blk t).view.emb y) = V c main_v27 y
    refine congrArg (V c main_v27) (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega
  exact Cert.Net.updAt_congr _ _ _ _ _ _ _ _ _ _ _ _ p r q hx0 hx1 hi hw3 hw4 hw5

/-- What point t writes back to the first output is block t of the update layer. -/
theorem flushed8_eq (c : Dev nD) (t : Fin cfg1.N) :
    (dat1 V c).flushed 8 t = ((cfg1.win 8).blk t).view.read (Elt Ideal) (G8 V c) := by
  show (cfg1.win 8).cut (grid1.coords t) ((dat1 V c).after 8 t) = _
  rw [after1_8]
  unfold out1_8
  rw [View.canon_unit_zero hz]
  simp only [View.ld_unit_zero (S := S5000x256) hz, View.ld_unit_zero (S := S5000x64) hz, View.ld_unit_zero (S := S5000x1) hz,
    View.ld_unit_zero (S := S256x128) hz, View.ld_unit_zero (S := S64x128) hz, View.ld_unit_zero (S := S1x128) hz]
  obtain ⟨e0_0, e0_1, e1_0, e1_1, e2_0, e2_1, e3_0, e3_1, e4_0, e4_1, e5_0, e5_1, e6_0, e6_1, e7_0, e7_1, e8_0, e8_1, e9_0, e9_1⟩ := idx_facts t
  funext j
  obtain ⟨p, q, rfl⟩ : ∃ (p : Fin 5000) (q : Fin 128), j = ix2 p q := ⟨j 0, j 1, eq_ix2 j⟩
  refine (pay1 _ _ _ _ _ _ p q).trans ?_
  rw [View.read_apply]
  have hq : ((cfg1.win 8).blk t).view.emb (ix2 p q) 1 = q :=
    Fin.ext (by show win1_8.index t (1 : Fin 2) * 128 + 1 * q.val = q.val; omega)
  show _ = Cert.Net.updAt (V c main_arg0) (V c main_v24) (V c main_v12) (V c main_v25) (V c main_v26) (V c main_v27)
      (((cfg1.win 8).blk t).view.emb (ix2 p q) 0) (((cfg1.win 8).blk t).view.emb (ix2 p q) 1)
  rw [hq]
  exact blk_upd V c t p _ (by show win1_8.index t (0 : Fin 2) * 5000 + 1 * p.val = t.val * 5000 + p.val; omega) q

/-- What point t writes back to the second output is block t of the linear layer of the update layer. -/
theorem flushed9_eq (c : Dev nD) (t : Fin cfg1.N) :
    (dat1 V c).flushed 9 t = ((cfg1.win 9).blk t).view.read (Elt Ideal) (G9 V c) := by
  show (cfg1.win 9).cut (grid1.coords t) ((dat1 V c).after 9 t) = _
  rw [after1_9]
  unfold out1_9
  rw [View.canon_unit_zero hz]
  simp only [View.ld_unit_zero (S := S5000x256) hz, View.ld_unit_zero (S := S5000x64) hz, View.ld_unit_zero (S := S5000x1) hz,
    View.ld_unit_zero (S := S256x128) hz, View.ld_unit_zero (S := S64x128) hz, View.ld_unit_zero (S := S1x128) hz,
    View.ld_unit_zero (S := S128x64) hz, View.ld_unit_zero (S := S1x64) hz]
  obtain ⟨e0_0, e0_1, e1_0, e1_1, e2_0, e2_1, e3_0, e3_1, e4_0, e4_1, e5_0, e5_1, e6_0, e6_1, e7_0, e7_1, e8_0, e8_1, e9_0, e9_1⟩ := idx_facts t
  funext j
  obtain ⟨p, q, rfl⟩ : ∃ (p : Fin 5000) (q : Fin 64), j = ix2 p q := ⟨j 0, j 1, eq_ix2 j⟩
  refine (pay2 _ _ _ _ _ _ _ _ p q).trans ?_
  rw [View.read_apply]
  have hq : ((cfg1.win 9).blk t).view.emb (ix2 p q) 1 = q :=
    Fin.ext (by show win1_9.index t (1 : Fin 2) * 64 + 1 * q.val = q.val; omega)
  have hr : (((cfg1.win 9).blk t).view.emb (ix2 p q) 0).val = t.val * 5000 + p.val := by
    show win1_9.index t (0 : Fin 2) * 5000 + 1 * p.val = t.val * 5000 + p.val; omega
  show _ = Cert.Net.linAt (G8 V c) (V c main_arg7) (V c main_v28)
      (((cfg1.win 9).blk t).view.emb (ix2 p q) 0) (((cfg1.win 9).blk t).view.emb (ix2 p q) 1)
  rw [hq]
  have hw6 : iblk1 V c 6 t = V c main_arg7 := by
    funext y
    show V c main_arg7 (((cfg1.win 6).blk t).view.emb y) = V c main_arg7 y
    refine congrArg (V c main_arg7) (funext fun a => Fin.ext ?_)
    match a with
    | ⟨0, _⟩ => show win1_6.index t (0 : Fin 2) * 128 + 1 * (y 0).val = (y 0).val; omega
    | ⟨1, _⟩ => show win1_6.index t (1 : Fin 2) * 64 + 1 * (y 1).val = (y 1).val; omega
  have hw7 : iblk1 V c 7 t = V c main_v28 := by
    funext y
    show V c main_v28 (((cfg1.win 7).blk t).view.emb y) = V c main_v28 y
    refine congrArg (V c main_v28) (funext fun a => Fin.ext ?_)
    match a with
    | ⟨0, _⟩ => show win1_7.index t (0 : Fin 2) * 1 + 1 * (y 0).val = (y 0).val; omega
    | ⟨1, _⟩ => show win1_7.index t (1 : Fin 2) * 64 + 1 * (y 1).val = (y 1).val; omega
  refine Cert.Net.linAt_congr _ _ _ _ _ _ p _ q (fun k => ?_) hw6 hw7
  exact (pay1 _ _ _ _ _ _ p k).trans (blk_upd V c t p _ hr k)

/-- An index of the output array is in point t's block iff each coordinate is in the block's range on its axis. -/
theorem mem_blk8 (t : Fin cfg1.N) (i : S100000x128.Idx) :
    i ∈ ((cfg1.win 8).blk t).view.set ↔ ∀ a : Fin 2, win1_8.index t a * S5000x128.size a ≤ (i a).val
      ∧ (i a).val < win1_8.index t a * S5000x128.size a + S5000x128.size a := by
  show i ∈ ((View.whole main_v29_0).slice (win1_8.rect t)).set ↔ _
  rw [View.set_slice_whole, Rect.mem_set_unit]
  exact Iff.rfl

/-- The 20 blocks tile the output: row r lies in the block of point r / 5000. -/
theorem cover8 (i : S100000x128.Idx) :
    ∃ t : Fin cfg1.N, (cfg1.win 8).flush t = true ∧ i ∈ ((cfg1.win 8).blk t).view.set := by
  have h0 : (i 0).val < 100000 := (i 0).isLt
  have h1 : (i 1).val < 128 := (i 1).isLt
  have ht : (i 0).val / 5000 < 20 := by omega
  refine ⟨⟨(i 0).val / 5000, ht⟩, flush1_8 _, ?_⟩
  rw [mem_blk8]
  obtain ⟨e0_0, e0_1, e1_0, e1_1, e2_0, e2_1, e3_0, e3_1, e4_0, e4_1, e5_0, e5_1, e6_0, e6_1, e7_0, e7_1, e8_0, e8_1, e9_0, e9_1⟩ := idx_facts ⟨(i 0).val / 5000, ht⟩
  intro a
  match a with
  | ⟨0, _⟩ =>
    show win1_8.index ⟨(i 0).val / 5000, ht⟩ (0 : Fin 2) * 5000 ≤ (i 0).val
      ∧ (i 0).val < win1_8.index ⟨(i 0).val / 5000, ht⟩ (0 : Fin 2) * 5000 + 5000
    rw [e8_0]
    show (i 0).val / 5000 * 5000 ≤ (i 0).val ∧ (i 0).val < (i 0).val / 5000 * 5000 + 5000
    omega
  | ⟨1, _⟩ =>
    show win1_8.index ⟨(i 0).val / 5000, ht⟩ (1 : Fin 2) * 128 ≤ (i 1).val
      ∧ (i 1).val < win1_8.index ⟨(i 0).val / 5000, ht⟩ (1 : Fin 2) * 128 + 128
    omega

/-- An index of the output array is in point t's block iff each coordinate is in the block's range on its axis. -/
theorem mem_blk9 (t : Fin cfg1.N) (i : S100000x64.Idx) :
    i ∈ ((cfg1.win 9).blk t).view.set ↔ ∀ a : Fin 2, win1_9.index t a * S5000x64.size a ≤ (i a).val
      ∧ (i a).val < win1_9.index t a * S5000x64.size a + S5000x64.size a := by
  show i ∈ ((View.whole main_v29_1).slice (win1_9.rect t)).set ↔ _
  rw [View.set_slice_whole, Rect.mem_set_unit]
  exact Iff.rfl

/-- The 20 blocks tile the output: row r lies in the block of point r / 5000. -/
theorem cover9 (i : S100000x64.Idx) :
    ∃ t : Fin cfg1.N, (cfg1.win 9).flush t = true ∧ i ∈ ((cfg1.win 9).blk t).view.set := by
  have h0 : (i 0).val < 100000 := (i 0).isLt
  have h1 : (i 1).val < 64 := (i 1).isLt
  have ht : (i 0).val / 5000 < 20 := by omega
  refine ⟨⟨(i 0).val / 5000, ht⟩, flush1_9 _, ?_⟩
  rw [mem_blk9]
  obtain ⟨e0_0, e0_1, e1_0, e1_1, e2_0, e2_1, e3_0, e3_1, e4_0, e4_1, e5_0, e5_1, e6_0, e6_1, e7_0, e7_1, e8_0, e8_1, e9_0, e9_1⟩ := idx_facts ⟨(i 0).val / 5000, ht⟩
  intro a
  match a with
  | ⟨0, _⟩ =>
    show win1_9.index ⟨(i 0).val / 5000, ht⟩ (0 : Fin 2) * 5000 ≤ (i 0).val
      ∧ (i 0).val < win1_9.index ⟨(i 0).val / 5000, ht⟩ (0 : Fin 2) * 5000 + 5000
    rw [e9_0]
    show (i 0).val / 5000 * 5000 ≤ (i 0).val ∧ (i 0).val < (i 0).val / 5000 * 5000 + 5000
    omega
  | ⟨1, _⟩ =>
    show win1_9.index ⟨(i 0).val / 5000, ht⟩ (1 : Fin 2) * 64 ≤ (i 1).val
      ∧ (i 1).val < win1_9.index ⟨(i 0).val / 5000, ht⟩ (1 : Fin 2) * 64 + 64
    omega

/-- After the grid the first output holds the update layer of the arrays the region found … -/
theorem final8 (c : Dev nD) : (dat1 V c).arrAt 8 cfg1.N = G8 V c :=
  (dat1 V c).arrAt_eq_of_cover 8 (G8 V c) (fun t _ => flushed8_eq V c t) cover8

/-- … and the second the linear layer of it. -/
theorem final9 (c : Dev nD) : (dat1 V c).arrAt 9 cfg1.N = G9 V c :=
  (dat1 V c).arrAt_eq_of_cover 9 (G9 V c) (fun t _ => flushed9_eq V c t) cover9

end Cert.KernelIdeal.Region1

end
-- ==== Proof.Region2.lean ====
/-
  What the third grid of launches leaves in its output array.

  Point t reads rows 5000·t … of the first layer's output, of the aggregated second messages and of the weight column,
  and the whole of four weight matrices and four bias rows. Row p of the [5000, 1] block it writes is the head applied to
  the second update layer's row for node 5000·t + p: update, then a clamped linear layer of width 32, then a linear
  layer of width 1. Every entry reads only row 5000·t + p of the row-indexed arrays, so the block is the block of one
  whole-array function, and the 20 blocks tile the output.
-/
import proofs.«161832_j61529701482519_2_alg».proof.Proof.Gen.KernelIdeal.Frame
import proofs.«161832_j61529701482519_2_alg».proof.Proof.LibLayers
import proofs.«161832_j61529701482519_2_alg».proof.Proof.KDims

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.Dims

variable (V : (c : Dev nD) → (b : Ref sig .tc) → Buf (Elt Ideal) ((c : Thread nD τ).loc b))

theorem hz : (![0, 0] : Fin 2 → Nat) = fun _ => 0 := funext fun a => by fin_cases a <;> rfl

/-- The hidden head layer's arithmetic at (p, k) of a block: the clamped linear entry of the block's update rows. -/
theorem pay2 (x0 : Vec Ideal S5000x128 .f32) (x1 : Vec Ideal S5000x64 .f32) (x2 : Vec Ideal S5000x1 .f32)
    (x3 : Vec Ideal S128x64 .f32) (x4 : Vec Ideal S64x64 .f32) (x5 : Vec Ideal S1x64 .f32)
    (x6 : Vec Ideal S64x32 .f32) (x7 : Vec Ideal S1x32 .f32) (p : Fin 5000) (k : Fin 32) :
    k2_pay2 (F := Ideal) x0 x1 x2 x3 x4 x5 x6 x7 (ix2 p k)
      = Cert.Net.reluLin (Cert.Net.upd x0 x1 x2 x3 x4 x5) x6 x7 (ix2 p k) := by
  unfold k2_pay2
  rw [truncf_apply]
  refine (Cert.Net.reluLin_body _ rbc_S5000x64_S64x32_S5000x32 _ _ x7 _ _ p k).trans ?_
  rw [Cert.Net.reluLin_apply]
  refine congrArg (fun z => max z (Ideal.ofBits .f32 0x00000000#32)) ?_
  refine Cert.Net.linAt_congr _ _ _ _ _ _ p p k (fun j => ?_) rfl rfl
  rw [truncf_apply]
  refine (Cert.Net.upd_body _ rbc_S5000x128_S128x64_S5000x64 _ rbc_S5000x64_S64x64_S5000x64 _ _ _ _ _ x5 _ _ _ _ p j).trans ?_
  simp only [shapeCast_self]
  rfl

/-- The store's arithmetic at (p, q): the linear entry of the hidden layer's rows. -/
theorem pay1 (h : FVec Ideal S5000x32 .bf16) (x8 : Vec Ideal S32x1 .f32) (x9 : Vec Ideal S1x1 .f32) (p : Fin 5000) (q : Fin 1) :
    k2_pay1 (F := Ideal) h x8 x9 (ix2 p q) = Cert.Net.linAt h x8 x9 p q := by
  unfold k2_pay1
  exact Cert.Net.lin_body _ rbc_S5000x32_S32x1_S5000x1 _ _ x9 _ _ p q

/-- The printed index maps over the grid: the row block of the three row-indexed inputs and of the output is the
    point's number, every other block index is 0. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = t.val
    ∧ win2_10.index t (1 : Fin 2) = 0 :=
  (by decide +kernel : ∀ t : Fin grid2.N, _)

/-- The second update layer of the arrays the region found. -/
abbrev X2 (c : Dev nD) : S100000x64.Idx → EReal :=
  Cert.Net.upd (V c main_v29_0) (V c main_v39) (V c main_v12) (V c main_v40) (V c main_v41) (V c main_v42)

/-- The output: the head of it. -/
abbrev G (c : Dev nD) : S100000x1.Idx → EReal :=
  Cert.Net.lin (Cert.Net.reluLin (X2 V c) (V c main_arg11) (V c main_v43)) (V c main_arg13) (V c main_v44)

/-- Row p of point t's blocks against row r = 5000 t + p of the arrays: the update entries agree. -/
theorem blk_upd (c : Dev nD) (t : Fin cfg2.N) (p : Fin 5000) (r : Fin 100000) (hr : r.val = t.val * 5000 + p.val) (q : Fin 64) :
    Cert.Net.updAt (iblk2 V c 0 t) (iblk2 V c 1 t) (iblk2 V c 2 t) (iblk2 V c 3 t) (iblk2 V c 4 t) (iblk2 V c 5 t) p q
      = Cert.Net.updAt (V c main_v29_0) (V c main_v39) (V c main_v12) (V c main_v40) (V c main_v41) (V c main_v42) r q := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  have hx0 : ∀ k : Fin 128, iblk2 V c 0 t (ix2 p k) = V c main_v29_0 (ix2 r k) := fun k => by
    show V c main_v29_0 (((cfg2.win 0).blk t).view.emb (ix2 p k)) = V c main_v29_0 (ix2 r k)
    refine congrArg (V c main_v29_0) (funext fun a => Fin.ext ?_)
    match a with
    | ⟨0, _⟩ => show win2_0.index t (0 : Fin 2) * 5000 + 1 * p.val = r.val; omega
    | ⟨1, _⟩ => show win2_0.index t (1 : Fin 2) * 128 + 1 * k.val = k.val; omega
  have hx1 : ∀ k : Fin 64, iblk2 V c 1 t (ix2 p k) = V c main_v39 (ix2 r k) := fun k => by
    show V c main_v39 (((cfg2.win 1).blk t).view.emb (ix2 p k)) = V c main_v39 (ix2 r k)
    refine congrArg (V c main_v39) (funext fun a => Fin.ext ?_)
    match a with
    | ⟨0, _⟩ => show win2_1.index t (0 : Fin 2) * 5000 + 1 * p.val = r.val; omega
    | ⟨1, _⟩ => show win2_1.index t (1 : Fin 2) * 64 + 1 * k.val = k.val; omega
  have hi : iblk2 V c 2 t (ix2 p (0 : Fin 1)) = V c main_v12 (ix2 r (0 : Fin 1)) := by
    show V c main_v12 (((cfg2.win 2).blk t).view.emb (ix2 p (0 : Fin 1))) = V c main_v12 (ix2 r (0 : Fin 1))
    refine congrArg (V c main_v12) (funext fun a => Fin.ext ?_)
    match a with
    | ⟨0, _⟩ => show win2_2.index t (0 : Fin 2) * 5000 + 1 * p.val = r.val; omega
    | ⟨1, _⟩ => show win2_2.index t (1 : Fin 2) * 1 + 1 * 0 = 0; omega
  have hw3 : iblk2 V c 3 t = V c main_v40 := by
    funext y
    show V c main_v40 (((cfg2.win 3).blk t).view.emb y) = V c main_v40 y
    refine congrArg (V c main_v40) (funext fun a => Fin.ext ?_)
    match a with
    | ⟨0, _⟩ => show win2_3.index t (0 : Fin 2) * 128 + 1 * (y 0).val = (y 0).val; omega
    | ⟨1, _⟩ => show win2_3.index t (1 : Fin 2) * 64 + 1 * (y 1).val = (y 1).val; omega
  have hw4 : iblk2 V c 4 t = V c main_v41 := by
    funext y
    show V c main_v41 (((cfg2.win 4).blk t).view.emb y) = V c main_v41 y
    refine congrArg (V c main_v41) (funext fun a => Fin.ext ?_)
    match a with
    | ⟨0, _⟩ => show win2_4.index t (0 : Fin 2) * 64 + 1 * (y 0).val = (y 0).val; omega
    | ⟨1, _⟩ => show win2_4.index t (1 : Fin 2) * 64 + 1 * (y 1).val = (y 1).val; omega
  have hw5 : iblk2 V c 5 t = V c main_v42 := by
    funext y
    show V c main_v42 (((cfg2.win 5).blk t).view.emb y) = V c main_v42 y
    refine congrArg (V c main_v42) (funext fun a => Fin.ext ?_)
    match a with
    | ⟨0, _⟩ => show win2_5.index t (0 : Fin 2) * 1 + 1 * (y 0).val = (y 0).val; omega
    | ⟨1, _⟩ => show win2_5.index t (1 : Fin 2) * 64 + 1 * (y 1).val = (y 1).val; omega
  exact Cert.Net.updAt_congr _ _ _ _ _ _ _ _ _ _ _ _ p r q hx0 hx1 hi hw3 hw4 hw5

/-- What point t writes back is block t of the head of the second update layer. -/
theorem flushed_eq (c : Dev nD) (t : Fin cfg2.N) :
    (dat2 V c).flushed 10 t = ((cfg2.win 10).blk t).view.read (Elt Ideal) (G V c) := by
  show (cfg2.win 10).cut (grid2.coords t) ((dat2 V c).after 10 t) = _
  rw [after2_10]
  unfold out2_10
  rw [View.canon_unit_zero hz]
  simp only [View.ld_unit_zero (S := S5000x128) hz, View.ld_unit_zero (S := S5000x64) hz, View.ld_unit_zero (S := S5000x1) hz,
    View.ld_unit_zero (S := S128x64) hz, View.ld_unit_zero (S := S64x64) hz, View.ld_unit_zero (S := S1x64) hz,
    View.ld_unit_zero (S := S64x32) hz, View.ld_unit_zero (S := S1x32) hz, View.ld_unit_zero (S := S32x1) hz,
    View.ld_unit_zero (S := S1x1) hz]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext j
  obtain ⟨p, q, rfl⟩ : ∃ (p : Fin 5000) (q : Fin 1), j = ix2 p q := ⟨j 0, j 1, eq_ix2 j⟩
  refine (pay1 _ _ _ p q).trans ?_
  rw [View.read_apply]
  have hq : ((cfg2.win 10).blk t).view.emb (ix2 p q) 1 = q :=
    Fin.ext (by show win2_10.index t (1 : Fin 2) * 1 + 1 * q.val = q.val; omega)
  have hr : (((cfg2.win 10).blk t).view.emb (ix2 p q) 0).val = t.val * 5000 + p.val := by
    show win2_10.index t (0 : Fin 2) * 5000 + 1 * p.val = t.val * 5000 + p.val; omega
  show _ = Cert.Net.linAt (Cert.Net.reluLin (X2 V c) (V c main_arg11) (V c main_v43)) (V c main_arg13) (V c main_v44)
      (((cfg2.win 10).blk t).view.emb (ix2 p q) 0) (((cfg2.win 10).blk t).view.emb (ix2 p q) 1)
  rw [hq]
  have hw6 : iblk2 V c 6 t = V c main_arg11 := by
    funext y
    show V c main_arg11 (((cfg2.win 6).blk t).view.emb y) = V c main_arg11 y
    refine congrArg (V c main_arg11) (funext fun a => Fin.ext ?_)
    match a with
    | ⟨0, _⟩ => show win2_6.index t (0 : Fin 2) * 64 + 1 * (y 0).val = (y 0).val; omega
    | ⟨1, _⟩ => show win2_6.index t (1 : Fin 2) * 32 + 1 * (y 1).val = (y 1).val; omega
  have hw7 : iblk2 V c 7 t = V c main_v43 := by
    funext y
    show V c main_v43 (((cfg2.win 7).blk t).view.emb y) = V c main_v43 y
    refine congrArg (V c main_v43) (funext fun a => Fin.ext ?_)
    match a with
    | ⟨0, _⟩ => show win2_7.index t (0 : Fin 2) * 1 + 1 * (y 0).val = (y 0).val; omega
    | ⟨1, _⟩ => show win2_7.index t (1 : Fin 2) * 32 + 1 * (y 1).val = (y 1).val; omega
  have hw8 : iblk2 V c 8 t = V c main_arg13 := by
    funext y
    show V c main_arg13 (((cfg2.win 8).blk t).view.emb y) = V c main_arg13 y
    refine congrArg (V c main_arg13) (funext fun a => Fin.ext ?_)
    match a with
    | ⟨0, _⟩ => show win2_8.index t (0 : Fin 2) * 32 + 1 * (y 0).val = (y 0).val; omega
    | ⟨1, _⟩ => show win2_8.index t (1 : Fin 2) * 1 + 1 * (y 1).val = (y 1).val; omega
  have hw9 : iblk2 V c 9 t = V c main_v44 := by
    funext y
    show V c main_v44 (((cfg2.win 9).blk t).view.emb y) = V c main_v44 y
    refine congrArg (V c main_v44) (funext fun a => Fin.ext ?_)
    match a with
    | ⟨0, _⟩ => show win2_9.index t (0 : Fin 2) * 1 + 1 * (y 0).val = (y 0).val; omega
    | ⟨1, _⟩ => show win2_9.index t (1 : Fin 2) * 1 + 1 * (y 1).val = (y 1).val; omega
  refine Cert.Net.linAt_congr _ _ _ _ _ _ p _ q (fun k => ?_) hw8 hw9
  refine (pay2 _ _ _ _ _ _ _ _ p k).trans ?_
  show max (Cert.Net.linAt _ _ _ p k) _
    = max (Cert.Net.linAt (X2 V c) (V c main_arg11) (V c main_v43) (((cfg2.win 10).blk t).view.emb (ix2 p q) 0) k) _
  refine congrArg (fun z => max z (Ideal.ofBits .f32 0x00000000#32)) ?_
  refine Cert.Net.linAt_congr _ _ _ _ _ _ p _ k (fun j => ?_) hw6 hw7
  exact blk_upd V c t p _ hr j

/-- An index of the output array is in point t's block iff each coordinate is in the block's range on its axis. -/
theorem mem_blk10 (t : Fin cfg2.N) (i : S100000x1.Idx) :
    i ∈ ((cfg2.win 10).blk t).view.set ↔ ∀ a : Fin 2, win2_10.index t a * S5000x1.size a ≤ (i a).val
      ∧ (i a).val < win2_10.index t a * S5000x1.size a + S5000x1.size a := by
  show i ∈ ((View.whole main_v45).slice (win2_10.rect t)).set ↔ _
  rw [View.set_slice_whole, Rect.mem_set_unit]
  exact Iff.rfl

/-- The 20 blocks tile the output: row r lies in the block of point r / 5000. -/
theorem cover10 (i : S100000x1.Idx) :
    ∃ t : Fin cfg2.N, (cfg2.win 10).flush t = true ∧ i ∈ ((cfg2.win 10).blk t).view.set := by
  have h0 : (i 0).val < 100000 := (i 0).isLt
  have h1 : (i 1).val < 1 := (i 1).isLt
  have ht : (i 0).val / 5000 < 20 := by omega
  refine ⟨⟨(i 0).val / 5000, ht⟩, flush2_10 _, ?_⟩
  rw [mem_blk10]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts ⟨(i 0).val / 5000, ht⟩
  intro a
  match a with
  | ⟨0, _⟩ =>
    show win2_10.index ⟨(i 0).val / 5000, ht⟩ (0 : Fin 2) * 5000 ≤ (i 0).val
      ∧ (i 0).val < win2_10.index ⟨(i 0).val / 5000, ht⟩ (0 : Fin 2) * 5000 + 5000
    rw [e10_0]
    show (i 0).val / 5000 * 5000 ≤ (i 0).val ∧ (i 0).val < (i 0).val / 5000 * 5000 + 5000
    omega
  | ⟨1, _⟩ =>
    show win2_10.index ⟨(i 0).val / 5000, ht⟩ (1 : Fin 2) * 1 ≤ (i 1).val
      ∧ (i 1).val < win2_10.index ⟨(i 0).val / 5000, ht⟩ (1 : Fin 2) * 1 + 1
    omega

/-- After the grid the output array holds the head of the second update layer of the arrays the region found. -/
theorem final (c : Dev nD) : (dat2 V c).arrAt 10 cfg2.N = G V c :=
  (dat2 V c).arrAt_eq_of_cover 10 (G V c) (fun t _ => flushed_eq V c t) cover10

end Cert.KernelIdeal.Region2

end
-- ==== Proof.LibMeanLaw.lean ====
/-
  The three facts about extended reals that join the two programs.

  * The word 0x3F800000 denotes the extended real 1.
  * Division by a number that is at least 1 is multiplication by its reciprocal, 1 / y. This holds for every extended
    real x and for y = +inf as well (both sides are x * 0), because a divisor that is at least 1 is not 0 and the quotient
    by a non-zero divisor is by definition the product with the inverse. No finiteness is used.
  * A sum over K = a + b consecutive positions is the sum over the first a plus the sum over the last b. Addition of
    extended reals is commutative and associative, so this holds whatever the terms are.
-/
import Mathlib
import Idealize.ShloMosaic.PureOps.Ideal

noncomputable section

namespace Cert.Law

open Idealize.ShloMosaic

/-- The word of 1.0 denotes 1. -/
theorem one_word : Ideal.ofBits .f32 0x3F800000#32 = 1 := by
  simp [Ideal.ofBits, Ideal.ieee, -EReal.coe_mul]; norm_num

/-- x / y = x * (1 / y) for every extended real x and every y that is at least 1. -/
theorem div_eq_mul_recip (x y : EReal) (hy : 1 ≤ y) : Ideal.div x y = x * Ideal.div 1 y := by
  have h0 : y ≠ 0 := fun e => absurd (e ▸ hy) (not_le.mpr zero_lt_one)
  unfold Ideal.div
  rw [if_neg h0, if_neg h0, one_mul]

/-- The same with the numerator 1 spelt as the word of 1.0 and the divisor as a maximum with that word. -/
theorem div_max_one (x c : EReal) :
    Ideal.div x (max c (Ideal.ofBits .f32 0x3F800000#32))
      = x * Ideal.div (Ideal.ofBits .f32 0x3F800000#32) (max c (Ideal.ofBits .f32 0x3F800000#32)) := by
  rw [one_word]
  exact div_eq_mul_recip x _ (le_max_right c 1)

/-- A sum over K = a + b positions: the first a, then the last b. -/
theorem sum_split {K : ℕ} (a b : ℕ) (h : K = a + b) (f : Fin K → EReal) :
    ∑ j, f j = (∑ k : Fin a, f ⟨k.val, by omega⟩) + ∑ k : Fin b, f ⟨a + k.val, by omega⟩ := by
  subst h
  exact Fin.sum_univ_add f

end Cert.Law

end
-- ==== Proof.Spec.lean ====
/-
  The network as one function of the argument arrays.

  Two ingredients depend on the edge list only through host operations that both programs apply verbatim, so they are
  named here and never opened: the aggregation of a [100000, 64] array of messages (gather each edge's source row, add
  it into the edge's destination row of a zero array), and the normalizer, each node's number of incoming edges raised
  to at least 1. The normalizer is at least 1 by its outer maximum with the constant 1, whatever the edge list holds.

  With those, the network is: messages h1 = x·W1a + b1a; x1 = update(x, aggregate h1); messages h2 = x1·W2a + b2a;
  x2 = update(x1, aggregate h2); head = (clamp(x2·Wl1 + bl1))·Wl2 + bl2, an update being
  clamp(x·W_top + (sum · 1/normalizer)·W_bottom + b) with W_top and W_bottom the first rows and the last 64 rows of the
  layer's matrix.
-/
import proofs.«161832_j61529701482519_2_alg».proof.Proof.Gen.ReferenceIdeal.Read
import proofs.«161832_j61529701482519_2_alg».proof.Proof.LibMeanLaw
import proofs.«161832_j61529701482519_2_alg».proof.Proof.LibLayers

noncomputable section

namespace Cert.Spec

open Cert.ReferenceIdeal Cert.ReferenceIdeal.Read Idealize.ShloMosaic Idealize.ShloMosaic.ValueIdx Cert.Net

/-- The sum over each node's incoming edges of the source nodes' message rows. -/
def agg (e : (⟨S2x3200000, .i32⟩ : BufTy).Contents (Elt Ideal)) (h : FVec Ideal S100000x64 .f32) : FVec Ideal S100000x64 .f32 :=
  Host.scatterAdd (F := Ideal) scatter_S100000x64_S3200000x1_S3200000x64_1_0_0_1 (val_main_v15 (F := Ideal))
    (val_main_v16 (F := Ideal) e)
    (Host.gather gather_S100000x64_S3200000x1_S3200000x64_1_0_n_n_0_1_164 h (val_main_v13 (F := Ideal) e))

/-- Each node's number of incoming edges, raised to at least 1. -/
def cmax (e : (⟨S2x3200000, .i32⟩ : BufTy).Contents (Elt Ideal)) : FVec Ideal S100000 .f32 := val_main_v23 (F := Ideal) e

/-- The normalizer is at least 1: it is a maximum with the constant 1. -/
theorem cmax_ge (e : (⟨S2x3200000, .i32⟩ : BufTy).Contents (Elt Ideal)) (r : Fin 100000) : 1 ≤ cmax e (ix1 r) := by
  unfold cmax
  rw [val_main_v23_apply, val_main_v22_apply, val_main_cst_3_apply]
  show 1 ≤ max _ (Ideal.ofBits .f32 0x3F800000#32)
  rw [Cert.Law.one_word]
  exact le_max_right _ _

theorem sc64 : S64.ShapeCasts S1x64 := by decide
theorem sc128 : S128.ShapeCasts S1x128 := by decide
theorem sc32 : S32.ShapeCasts S1x32 := by decide
theorem sc1 : S1.ShapeCasts S1x1 := by decide

/-- First conv layer's messages. -/
def h1 (x0 : FVec Ideal S100000x256 .f32) (x3 : FVec Ideal S256x64 .f32) (x4 : FVec Ideal S64 .f32) : FVec Ideal S100000x64 .f32 :=
  lin x0 x3 (shapeCast S1x64 x4 sc64)

/-- First conv layer's output. -/
def x1 (e : (⟨S2x3200000, .i32⟩ : BufTy).Contents (Elt Ideal)) (x0 : FVec Ideal S100000x256 .f32) (x3 : FVec Ideal S256x64 .f32)
    (x4 : FVec Ideal S64 .f32) (x5 : FVec Ideal S320x128 .f32) (x6 : FVec Ideal S128 .f32) : FVec Ideal S100000x128 .f32 :=
  upd x0 (agg e (h1 x0 x3 x4)) (recipCol (cmax e)) (topRows 256 (by decide) x5) (botRows 256 64 (by decide) x5)
    (shapeCast S1x128 x6 sc128)

/-- Second conv layer's messages, from the first layer's output. -/
def h2 (y : FVec Ideal S100000x128 .f32) (x7 : FVec Ideal S128x64 .f32) (x8 : FVec Ideal S64 .f32) : FVec Ideal S100000x64 .f32 :=
  lin y x7 (shapeCast S1x64 x8 sc64)

/-- Second conv layer's output, from the first layer's output and the aggregated second messages. -/
def x2 (e : (⟨S2x3200000, .i32⟩ : BufTy).Contents (Elt Ideal)) (y : FVec Ideal S100000x128 .f32) (s : FVec Ideal S100000x64 .f32)
    (x9 : FVec Ideal S192x64 .f32) (x10 : FVec Ideal S64 .f32) : FVec Ideal S100000x64 .f32 :=
  upd y s (recipCol (cmax e)) (topRows 128 (by decide) x9) (botRows 128 64 (by decide) x9) (shapeCast S1x64 x10 sc64)

/-- The head, from the second layer's output. -/
def head (z : FVec Ideal S100000x64 .f32) (x11 : FVec Ideal S64x32 .f32) (x12 : FVec Ideal S32 .f32)
    (x13 : FVec Ideal S32x1 .f32) (x14 : FVec Ideal S1 .f32) : FVec Ideal S100000x1 .f32 :=
  lin (reluLin z x11 (shapeCast S1x32 x12 sc32)) x13 (shapeCast S1x1 x14 sc1)

end Cert.Spec

end
-- ==== Proof.KChain.lean ====
/-
  The kernel program's result buffer, walked back to the argument arrays.

  The contents of the program's buffers are folded through its six segments: three stretches of host operations and
  three grids. A host stretch applies its operations to the contents before it; a grid replaces its output arrays by what
  its points wrote back (the layer functions of the arrays it found) and keeps every other buffer. Reading the buffers
  each segment uses, level by level, gives: the first grid's output is the first messages; the stretch after it
  aggregates them, cuts the first update matrix in two and views the biases as rows; the second grid's outputs are the
  first layer's output and the second messages; the stretch after it aggregates those and prepares the second layer's and
  the head's operands; the third grid's output is the head of the second layer's output. The reciprocal column, the two
  index vectors of the edge list and the bias rows are computed once, by the first stretch, and are carried through.
-/
import proofs.«161832_j61529701482519_2_alg».proof.Proof.Gen.KernelIdeal.Frame
import proofs.«161832_j61529701482519_2_alg».proof.Proof.Region0
import proofs.«161832_j61529701482519_2_alg».proof.Proof.Region1
import proofs.«161832_j61529701482519_2_alg».proof.Proof.Region2
import proofs.«161832_j61529701482519_2_alg».proof.Proof.Spec

set_option maxRecDepth 16384

noncomputable section

namespace Cert.KernelIdeal.Chain

open Cert.KernelIdeal Cert.KernelIdeal.Facts₀ Cert.KernelIdeal.Facts Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)

/-! ## After the first stretch -/

theorem W1_arg0 : W1 m ρ c (Proc.devRef .tc main_arg0) = (m ((c : Thread nD τ).loc main_arg0)) := by
  show StableHlo.after hostOps0 (W0 m ρ c) (Proc.devRef .tc main_arg0) = _
  after_results_simp <;> rfl
theorem W1_arg1 : W1 m ρ c (Proc.devRef .tc main_arg1) = (m ((c : Thread nD τ).loc main_arg1)) := by
  show StableHlo.after hostOps0 (W0 m ρ c) (Proc.devRef .tc main_arg1) = _
  after_results_simp <;> rfl
theorem W1_arg3 : W1 m ρ c (Proc.devRef .tc main_arg3) = (m ((c : Thread nD τ).loc main_arg3)) := by
  show StableHlo.after hostOps0 (W0 m ρ c) (Proc.devRef .tc main_arg3) = _
  after_results_simp <;> rfl
theorem W1_arg4 : W1 m ρ c (Proc.devRef .tc main_arg4) = (m ((c : Thread nD τ).loc main_arg4)) := by
  show StableHlo.after hostOps0 (W0 m ρ c) (Proc.devRef .tc main_arg4) = _
  after_results_simp <;> rfl
theorem W1_arg5 : W1 m ρ c (Proc.devRef .tc main_arg5) = (m ((c : Thread nD τ).loc main_arg5)) := by
  show StableHlo.after hostOps0 (W0 m ρ c) (Proc.devRef .tc main_arg5) = _
  after_results_simp <;> rfl
theorem W1_arg6 : W1 m ρ c (Proc.devRef .tc main_arg6) = (m ((c : Thread nD τ).loc main_arg6)) := by
  show StableHlo.after hostOps0 (W0 m ρ c) (Proc.devRef .tc main_arg6) = _
  after_results_simp <;> rfl
theorem W1_arg7 : W1 m ρ c (Proc.devRef .tc main_arg7) = (m ((c : Thread nD τ).loc main_arg7)) := by
  show StableHlo.after hostOps0 (W0 m ρ c) (Proc.devRef .tc main_arg7) = _
  after_results_simp <;> rfl
theorem W1_arg8 : W1 m ρ c (Proc.devRef .tc main_arg8) = (m ((c : Thread nD τ).loc main_arg8)) := by
  show StableHlo.after hostOps0 (W0 m ρ c) (Proc.devRef .tc main_arg8) = _
  after_results_simp <;> rfl
theorem W1_arg9 : W1 m ρ c (Proc.devRef .tc main_arg9) = (m ((c : Thread nD τ).loc main_arg9)) := by
  show StableHlo.after hostOps0 (W0 m ρ c) (Proc.devRef .tc main_arg9) = _
  after_results_simp <;> rfl
theorem W1_arg10 : W1 m ρ c (Proc.devRef .tc main_arg10) = (m ((c : Thread nD τ).loc main_arg10)) := by
  show StableHlo.after hostOps0 (W0 m ρ c) (Proc.devRef .tc main_arg10) = _
  after_results_simp <;> rfl
theorem W1_arg11 : W1 m ρ c (Proc.devRef .tc main_arg11) = (m ((c : Thread nD τ).loc main_arg11)) := by
  show StableHlo.after hostOps0 (W0 m ρ c) (Proc.devRef .tc main_arg11) = _
  after_results_simp <;> rfl
theorem W1_arg12 : W1 m ρ c (Proc.devRef .tc main_arg12) = (m ((c : Thread nD τ).loc main_arg12)) := by
  show StableHlo.after hostOps0 (W0 m ρ c) (Proc.devRef .tc main_arg12) = _
  after_results_simp <;> rfl
theorem W1_arg13 : W1 m ρ c (Proc.devRef .tc main_arg13) = (m ((c : Thread nD τ).loc main_arg13)) := by
  show StableHlo.after hostOps0 (W0 m ρ c) (Proc.devRef .tc main_arg13) = _
  after_results_simp <;> rfl
theorem W1_arg14 : W1 m ρ c (Proc.devRef .tc main_arg14) = (m ((c : Thread nD τ).loc main_arg14)) := by
  show StableHlo.after hostOps0 (W0 m ρ c) (Proc.devRef .tc main_arg14) = _
  after_results_simp <;> rfl
theorem W1_v1 : W1 m ρ c (Proc.devRef .tc main_v1) = (Cert.ReferenceIdeal.Read.val_main_v1 (F := Ideal) (m ((c : Thread nD τ).loc main_arg1))) := by
  show StableHlo.after hostOps0 (W0 m ρ c) (Proc.devRef .tc main_v1) = _
  after_results_simp <;> rfl
theorem W1_v3 : W1 m ρ c (Proc.devRef .tc main_v3) = (Cert.ReferenceIdeal.Read.val_main_v3 (F := Ideal) (m ((c : Thread nD τ).loc main_arg1))) := by
  show StableHlo.after hostOps0 (W0 m ρ c) (Proc.devRef .tc main_v3) = _
  after_results_simp <;> rfl
theorem W1_v13 : W1 m ρ c (Proc.devRef .tc main_v13) = (shapeCast S1x64 (m ((c : Thread nD τ).loc main_arg4)) Facts₀.shapeCasts_S64_S1x64) := by
  show StableHlo.after hostOps0 (W0 m ρ c) (Proc.devRef .tc main_v13) = _
  after_results_simp <;> rfl
theorem W1_v12 : W1 m ρ c (Proc.devRef .tc main_v12) = (Cert.Net.recipCol (Cert.Spec.cmax (m ((c : Thread nD τ).loc main_arg1)))) := by
  have h : W1 m ρ c (Proc.devRef .tc main_v12)
      = shapeCast S100000x1 (Host.divf (F := Ideal)
          (broadcastInDim S100000 ![] Facts₀.bcast_S_S100000 (constant (F := Ideal) S_ .f32 0x3F800000#32))
          (Cert.Spec.cmax (m ((c : Thread nD τ).loc main_arg1)))) Facts₀.shapeCasts_S100000_S100000x1 := by
    show StableHlo.after hostOps0 (W0 m ρ c) (Proc.devRef .tc main_v12) = _
    after_results_simp <;> rfl
  exact h.trans (Cert.Net.recipCol_eq _ _ _)

/-! ## After the first grid -/

theorem W2_v14 : W2 m ρ c (Proc.devRef .tc main_v14) = (Cert.Spec.h1 (m ((c : Thread nD τ).loc main_arg0)) (m ((c : Thread nD τ).loc main_arg3)) (m ((c : Thread nD τ).loc main_arg4))) := by
  refine ((W2_arr m ρ c 3).trans (Cert.KernelIdeal.Region0.final (V1 m ρ) c)).trans ?_
  show Cert.Net.lin (W1 m ρ c (Proc.devRef .tc main_arg0)) (W1 m ρ c (Proc.devRef .tc main_arg3)) (W1 m ρ c (Proc.devRef .tc main_v13)) = _
  rw [W1_arg0, W1_arg3, W1_v13]
  rfl
theorem W2_v1 : W2 m ρ c (Proc.devRef .tc main_v1) = (Cert.ReferenceIdeal.Read.val_main_v1 (F := Ideal) (m ((c : Thread nD τ).loc main_arg1))) :=
  (W2_of_ne m ρ c main_v1 (by decide)).trans (W1_v1 m ρ c)
theorem W2_v3 : W2 m ρ c (Proc.devRef .tc main_v3) = (Cert.ReferenceIdeal.Read.val_main_v3 (F := Ideal) (m ((c : Thread nD τ).loc main_arg1))) :=
  (W2_of_ne m ρ c main_v3 (by decide)).trans (W1_v3 m ρ c)
theorem W2_v12 : W2 m ρ c (Proc.devRef .tc main_v12) = (Cert.Net.recipCol (Cert.Spec.cmax (m ((c : Thread nD τ).loc main_arg1)))) :=
  (W2_of_ne m ρ c main_v12 (by decide)).trans (W1_v12 m ρ c)
theorem W2_arg0 : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (W1_arg0 m ρ c)
theorem W2_arg1 : W2 m ρ c (Proc.devRef .tc main_arg1) = (m ((c : Thread nD τ).loc main_arg1)) :=
  (W2_of_ne m ρ c main_arg1 (by decide)).trans (W1_arg1 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)
theorem W2_arg11 : W2 m ρ c (Proc.devRef .tc main_arg11) = (m ((c : Thread nD τ).loc main_arg11)) :=
  (W2_of_ne m ρ c main_arg11 (by decide)).trans (W1_arg11 m ρ c)
theorem W2_arg12 : W2 m ρ c (Proc.devRef .tc main_arg12) = (m ((c : Thread nD τ).loc main_arg12)) :=
  (W2_of_ne m ρ c main_arg12 (by decide)).trans (W1_arg12 m ρ c)
theorem W2_arg13 : W2 m ρ c (Proc.devRef .tc main_arg13) = (m ((c : Thread nD τ).loc main_arg13)) :=
  (W2_of_ne m ρ c main_arg13 (by decide)).trans (W1_arg13 m ρ c)
theorem W2_arg14 : W2 m ρ c (Proc.devRef .tc main_arg14) = (m ((c : Thread nD τ).loc main_arg14)) :=
  (W2_of_ne m ρ c main_arg14 (by decide)).trans (W1_arg14 m ρ c)

/-! ## After the second stretch -/

theorem W3_arg0 : W3 m ρ c (Proc.devRef .tc main_arg0) = (m ((c : Thread nD τ).loc main_arg0)) := by
  show StableHlo.after hostOps1 (W2 m ρ c) (Proc.devRef .tc main_arg0) = _
  after_results_simp
  exact W2_arg0 m ρ c
theorem W3_arg1 : W3 m ρ c (Proc.devRef .tc main_arg1) = (m ((c : Thread nD τ).loc main_arg1)) := by
  show StableHlo.after hostOps1 (W2 m ρ c) (Proc.devRef .tc main_arg1) = _
  after_results_simp
  exact W2_arg1 m ρ c
theorem W3_v12 : W3 m ρ c (Proc.devRef .tc main_v12) = (Cert.Net.recipCol (Cert.Spec.cmax (m ((c : Thread nD τ).loc main_arg1)))) := by
  show StableHlo.after hostOps1 (W2 m ρ c) (Proc.devRef .tc main_v12) = _
  after_results_simp
  exact W2_v12 m ρ c
theorem W3_arg7 : W3 m ρ c (Proc.devRef .tc main_arg7) = (m ((c : Thread nD τ).loc main_arg7)) := by
  show StableHlo.after hostOps1 (W2 m ρ c) (Proc.devRef .tc main_arg7) = _
  after_results_simp
  exact W2_arg7 m ρ c
theorem W3_v1 : W3 m ρ c (Proc.devRef .tc main_v1) = (Cert.ReferenceIdeal.Read.val_main_v1 (F := Ideal) (m ((c : Thread nD τ).loc main_arg1))) := by
  show StableHlo.after hostOps1 (W2 m ρ c) (Proc.devRef .tc main_v1) = _
  after_results_simp
  exact W2_v1 m ρ c
theorem W3_v3 : W3 m ρ c (Proc.devRef .tc main_v3) = (Cert.ReferenceIdeal.Read.val_main_v3 (F := Ideal) (m ((c : Thread nD τ).loc main_arg1))) := by
  show StableHlo.after hostOps1 (W2 m ρ c) (Proc.devRef .tc main_v3) = _
  after_results_simp
  exact W2_v3 m ρ c
theorem W3_arg9 : W3 m ρ c (Proc.devRef .tc main_arg9) = (m ((c : Thread nD τ).loc main_arg9)) := by
  show StableHlo.after hostOps1 (W2 m ρ c) (Proc.devRef .tc main_arg9) = _
  after_results_simp
  exact W2_arg9 m ρ c
theorem W3_arg10 : W3 m ρ c (Proc.devRef .tc main_arg10) = (m ((c : Thread nD τ).loc main_arg10)) := by
  show StableHlo.after hostOps1 (W2 m ρ c) (Proc.devRef .tc main_arg10) = _
  after_results_simp
  exact W2_arg10 m ρ c
theorem W3_arg11 : W3 m ρ c (Proc.devRef .tc main_arg11) = (m ((c : Thread nD τ).loc main_arg11)) := by
  show StableHlo.after hostOps1 (W2 m ρ c) (Proc.devRef .tc main_arg11) = _
  after_results_simp
  exact W2_arg11 m ρ c
theorem W3_arg12 : W3 m ρ c (Proc.devRef .tc main_arg12) = (m ((c : Thread nD τ).loc main_arg12)) := by
  show StableHlo.after hostOps1 (W2 m ρ c) (Proc.devRef .tc main_arg12) = _
  after_results_simp
  exact W2_arg12 m ρ c
theorem W3_arg13 : W3 m ρ c (Proc.devRef .tc main_arg13) = (m ((c : Thread nD τ).loc main_arg13)) := by
  show StableHlo.after hostOps1 (W2 m ρ c) (Proc.devRef .tc main_arg13) = _
  after_results_simp
  exact W2_arg13 m ρ c
theorem W3_arg14 : W3 m ρ c (Proc.devRef .tc main_arg14) = (m ((c : Thread nD τ).loc main_arg14)) := by
  show StableHlo.after hostOps1 (W2 m ρ c) (Proc.devRef .tc main_arg14) = _
  after_results_simp
  exact W2_arg14 m ρ c
theorem W3_v24 : W3 m ρ c (Proc.devRef .tc main_v24) = (Cert.Spec.agg (m ((c : Thread nD τ).loc main_arg1)) (Cert.Spec.h1 (m ((c : Thread nD τ).loc main_arg0)) (m ((c : Thread nD τ).loc main_arg3)) (m ((c : Thread nD τ).loc main_arg4)))) := by
  show StableHlo.after hostOps1 (W2 m ρ c) (Proc.devRef .tc main_v24) = _
  after_results_simp
  rw [W2_v1, W2_v3, W2_v14]
  rfl
theorem W3_v25 : W3 m ρ c (Proc.devRef .tc main_v25) = (Cert.Net.topRows 256 (by decide) (m ((c : Thread nD τ).loc main_arg5))) := by
  show StableHlo.after hostOps1 (W2 m ρ c) (Proc.devRef .tc main_v25) = _
  after_results_simp
  rw [W2_arg5]
  exact Cert.Net.slice_top _ _ _
theorem W3_v26 : W3 m ρ c (Proc.devRef .tc main_v26) = (Cert.Net.botRows 256 64 (by decide) (m ((c : Thread nD τ).loc main_arg5))) := by
  show StableHlo.after hostOps1 (W2 m ρ c) (Proc.devRef .tc main_v26) = _
  after_results_simp
  rw [W2_arg5]
  exact Cert.Net.slice_bot _ _ _
theorem W3_v27 : W3 m ρ c (Proc.devRef .tc main_v27) = (shapeCast S1x128 (m ((c : Thread nD τ).loc main_arg6)) Facts₀.shapeCasts_S128_S1x128) := by
  show StableHlo.after hostOps1 (W2 m ρ c) (Proc.devRef .tc main_v27) = _
  after_results_simp
  rw [W2_arg6]
  rfl
theorem W3_v28 : W3 m ρ c (Proc.devRef .tc main_v28) = (shapeCast S1x64 (m ((c : Thread nD τ).loc main_arg8)) Facts₀.shapeCasts_S64_S1x64) := by
  show StableHlo.after hostOps1 (W2 m ρ c) (Proc.devRef .tc main_v28) = _
  after_results_simp
  rw [W2_arg8]
  rfl

/-! ## After the second grid -/

theorem W4_v29_0 : W4 m ρ c (Proc.devRef .tc main_v29_0) = (Cert.Spec.x1 (m ((c : Thread nD τ).loc main_arg1)) (m ((c : Thread nD τ).loc main_arg0)) (m ((c : Thread nD τ).loc main_arg3)) (m ((c : Thread nD τ).loc main_arg4)) (m ((c : Thread nD τ).loc main_arg5)) (m ((c : Thread nD τ).loc main_arg6))) := by
  refine ((W4_arr m ρ c 8).trans (Cert.KernelIdeal.Region1.final8 (V3 m ρ) c)).trans ?_
  show Cert.Net.upd (W3 m ρ c (Proc.devRef .tc main_arg0)) (W3 m ρ c (Proc.devRef .tc main_v24)) (W3 m ρ c (Proc.devRef .tc main_v12))
    (W3 m ρ c (Proc.devRef .tc main_v25)) (W3 m ρ c (Proc.devRef .tc main_v26)) (W3 m ρ c (Proc.devRef .tc main_v27)) = _
  rw [W3_arg0, W3_v24, W3_v12, W3_v25, W3_v26, W3_v27]
  rfl
theorem W4_v29_1 : W4 m ρ c (Proc.devRef .tc main_v29_1) = (Cert.Spec.h2 (Cert.Spec.x1 (m ((c : Thread nD τ).loc main_arg1)) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8))) := by
  refine ((W4_arr m ρ c 9).trans (Cert.KernelIdeal.Region1.final9 (V3 m ρ) c)).trans ?_
  show Cert.Net.lin (Cert.Net.upd (W3 m ρ c (Proc.devRef .tc main_arg0)) (W3 m ρ c (Proc.devRef .tc main_v24)) (W3 m ρ c (Proc.devRef .tc main_v12))
    (W3 m ρ c (Proc.devRef .tc main_v25)) (W3 m ρ c (Proc.devRef .tc main_v26)) (W3 m ρ c (Proc.devRef .tc main_v27)))
    (W3 m ρ c (Proc.devRef .tc main_arg7)) (W3 m ρ c (Proc.devRef .tc main_v28)) = _
  rw [W3_arg0, W3_v24, W3_v12, W3_v25, W3_v26, W3_v27, W3_arg7, W3_v28]
  rfl
theorem W4_v12 : W4 m ρ c (Proc.devRef .tc main_v12) = (Cert.Net.recipCol (Cert.Spec.cmax (m ((c : Thread nD τ).loc main_arg1)))) :=
  ((W4_arr m ρ c 2).trans (((dat1 (V3 m ρ) c).arrAt_in 2 rfl _).trans (A_eq1 (V3 m ρ) c 2))).trans (W3_v12 m ρ c)
theorem W4_v1 : W4 m ρ c (Proc.devRef .tc main_v1) = (Cert.ReferenceIdeal.Read.val_main_v1 (F := Ideal) (m ((c : Thread nD τ).loc main_arg1))) :=
  (W4_of_ne m ρ c main_v1 (by decide)).trans (W3_v1 m ρ c)
theorem W4_v3 : W4 m ρ c (Proc.devRef .tc main_v3) = (Cert.ReferenceIdeal.Read.val_main_v3 (F := Ideal) (m ((c : Thread nD τ).loc main_arg1))) :=
  (W4_of_ne m ρ c main_v3 (by decide)).trans (W3_v3 m ρ c)
theorem W4_arg1 : W4 m ρ c (Proc.devRef .tc main_arg1) = (m ((c : Thread nD τ).loc main_arg1)) :=
  (W4_of_ne m ρ c main_arg1 (by decide)).trans (W3_arg1 m ρ c)
theorem W4_arg9 : W4 m ρ c (Proc.devRef .tc main_arg9) = (m ((c : Thread nD τ).loc main_arg9)) :=
  (W4_of_ne m ρ c main_arg9 (by decide)).trans (W3_arg9 m ρ c)
theorem W4_arg10 : W4 m ρ c (Proc.devRef .tc main_arg10) = (m ((c : Thread nD τ).loc main_arg10)) :=
  (W4_of_ne m ρ c main_arg10 (by decide)).trans (W3_arg10 m ρ c)
theorem W4_arg11 : W4 m ρ c (Proc.devRef .tc main_arg11) = (m ((c : Thread nD τ).loc main_arg11)) :=
  (W4_of_ne m ρ c main_arg11 (by decide)).trans (W3_arg11 m ρ c)
theorem W4_arg12 : W4 m ρ c (Proc.devRef .tc main_arg12) = (m ((c : Thread nD τ).loc main_arg12)) :=
  (W4_of_ne m ρ c main_arg12 (by decide)).trans (W3_arg12 m ρ c)
theorem W4_arg13 : W4 m ρ c (Proc.devRef .tc main_arg13) = (m ((c : Thread nD τ).loc main_arg13)) :=
  (W4_of_ne m ρ c main_arg13 (by decide)).trans (W3_arg13 m ρ c)
theorem W4_arg14 : W4 m ρ c (Proc.devRef .tc main_arg14) = (m ((c : Thread nD τ).loc main_arg14)) :=
  (W4_of_ne m ρ c main_arg14 (by decide)).trans (W3_arg14 m ρ c)

/-! ## After the third stretch -/

theorem W5_v29_0 : W5 m ρ c (Proc.devRef .tc main_v29_0) = (Cert.Spec.x1 (m ((c : Thread nD τ).loc main_arg1)) (m ((c : Thread nD τ).loc main_arg0)) (m ((c : Thread nD τ).loc main_arg3)) (m ((c : Thread nD τ).loc main_arg4)) (m ((c : Thread nD τ).loc main_arg5)) (m ((c : Thread nD τ).loc main_arg6))) := by
  show StableHlo.after hostOps2 (W4 m ρ c) (Proc.devRef .tc main_v29_0) = _
  after_results_simp
  exact W4_v29_0 m ρ c
theorem W5_v12 : W5 m ρ c (Proc.devRef .tc main_v12) = (Cert.Net.recipCol (Cert.Spec.cmax (m ((c : Thread nD τ).loc main_arg1)))) := by
  show StableHlo.after hostOps2 (W4 m ρ c) (Proc.devRef .tc main_v12) = _
  after_results_simp
  exact W4_v12 m ρ c
theorem W5_arg11 : W5 m ρ c (Proc.devRef .tc main_arg11) = (m ((c : Thread nD τ).loc main_arg11)) := by
  show StableHlo.after hostOps2 (W4 m ρ c) (Proc.devRef .tc main_arg11) = _
  after_results_simp
  exact W4_arg11 m ρ c
theorem W5_arg13 : W5 m ρ c (Proc.devRef .tc main_arg13) = (m ((c : Thread nD τ).loc main_arg13)) := by
  show StableHlo.after hostOps2 (W4 m ρ c) (Proc.devRef .tc main_arg13) = _
  after_results_simp
  exact W4_arg13 m ρ c
theorem W5_v39 : W5 m ρ c (Proc.devRef .tc main_v39) = (Cert.Spec.agg (m ((c : Thread nD τ).loc main_arg1)) (Cert.Spec.h2 (Cert.Spec.x1 (m ((c : Thread nD τ).loc main_arg1)) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)))) := by
  show StableHlo.after hostOps2 (W4 m ρ c) (Proc.devRef .tc main_v39) = _
  after_results_simp
  rw [W4_v1, W4_v3, W4_v29_1]
  rfl
theorem W5_v40 : W5 m ρ c (Proc.devRef .tc main_v40) = (Cert.Net.topRows 128 (by decide) (m ((c : Thread nD τ).loc main_arg9))) := by
  show StableHlo.after hostOps2 (W4 m ρ c) (Proc.devRef .tc main_v40) = _
  after_results_simp
  rw [W4_arg9]
  exact Cert.Net.slice_top _ _ _
theorem W5_v41 : W5 m ρ c (Proc.devRef .tc main_v41) = (Cert.Net.botRows 128 64 (by decide) (m ((c : Thread nD τ).loc main_arg9))) := by
  show StableHlo.after hostOps2 (W4 m ρ c) (Proc.devRef .tc main_v41) = _
  after_results_simp
  rw [W4_arg9]
  exact Cert.Net.slice_bot _ _ _
theorem W5_v42 : W5 m ρ c (Proc.devRef .tc main_v42) = (shapeCast S1x64 (m ((c : Thread nD τ).loc main_arg10)) Facts₀.shapeCasts_S64_S1x64) := by
  show StableHlo.after hostOps2 (W4 m ρ c) (Proc.devRef .tc main_v42) = _
  after_results_simp
  rw [W4_arg10]
  rfl
theorem W5_v43 : W5 m ρ c (Proc.devRef .tc main_v43) = (shapeCast S1x32 (m ((c : Thread nD τ).loc main_arg12)) Facts₀.shapeCasts_S32_S1x32) := by
  show StableHlo.after hostOps2 (W4 m ρ c) (Proc.devRef .tc main_v43) = _
  after_results_simp
  rw [W4_arg12]
  rfl
theorem W5_v44 : W5 m ρ c (Proc.devRef .tc main_v44) = (shapeCast S1x1 (m ((c : Thread nD τ).loc main_arg14)) Facts₀.shapeCasts_S1_S1x1) := by
  show StableHlo.after hostOps2 (W4 m ρ c) (Proc.devRef .tc main_v44) = _
  after_results_simp
  rw [W4_arg14]
  rfl

/-! ## After the third grid: the result -/

/-- The result buffer holds the network of the argument arrays. -/
theorem result : W6 m ρ c (Proc.devRef .tc main_v45) = (Cert.Spec.head (Cert.Spec.x2 (m ((c : Thread nD τ).loc main_arg1)) (Cert.Spec.x1 (m ((c : Thread nD τ).loc main_arg1)) (m ((c : Thread nD τ).loc main_arg0)) (m ((c : Thread nD τ).loc main_arg3)) (m ((c : Thread nD τ).loc main_arg4)) (m ((c : Thread nD τ).loc main_arg5)) (m ((c : Thread nD τ).loc main_arg6))) (Cert.Spec.agg (m ((c : Thread nD τ).loc main_arg1)) (Cert.Spec.h2 (Cert.Spec.x1 (m ((c : Thread nD τ).loc main_arg1)) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)))) (m ((c : Thread nD τ).loc main_arg9)) (m ((c : Thread nD τ).loc main_arg10))) (m ((c : Thread nD τ).loc main_arg11)) (m ((c : Thread nD τ).loc main_arg12)) (m ((c : Thread nD τ).loc main_arg13)) (m ((c : Thread nD τ).loc main_arg14))) := by
  refine ((W6_arr m ρ c 10).trans (Cert.KernelIdeal.Region2.final (V5 m ρ) c)).trans ?_
  show Cert.Net.lin (Cert.Net.reluLin (Cert.Net.upd (W5 m ρ c (Proc.devRef .tc main_v29_0)) (W5 m ρ c (Proc.devRef .tc main_v39)) (W5 m ρ c (Proc.devRef .tc main_v12))
      (W5 m ρ c (Proc.devRef .tc main_v40)) (W5 m ρ c (Proc.devRef .tc main_v41)) (W5 m ρ c (Proc.devRef .tc main_v42)))
      (W5 m ρ c (Proc.devRef .tc main_arg11)) (W5 m ρ c (Proc.devRef .tc main_v43))) (W5 m ρ c (Proc.devRef .tc main_arg13)) (W5 m ρ c (Proc.devRef .tc main_v44)) = _
  rw [W5_v29_0, W5_v39, W5_v12, W5_v40, W5_v41, W5_v42, W5_arg11, W5_v43, W5_arg13, W5_v44]
  rfl

end Cert.KernelIdeal.Chain

end
-- ==== Proof.LibRowForms.lean ====
/-
  Row forms of two-dimensional arrays read at an index, over any number of rows: a bias vector laid along every row, one
  column cut out of an array and flattened, sixteen one-column arrays joined side by side, and two arrays joined side by
  side. In each case the entry at row `r` depends only on row `r` of the operands. Two facts about tables of sixteen
  entries close the file.
-/
import Idealize.ShloMosaic.Lib.Pipeline.Value
import Idealize.ShloMosaic.Lib.ValueIdx

noncomputable section

namespace Cert.RowForms

open Idealize.ShloMosaic Idealize.ShloMosaic.ValueIdx

variable {α : Type}

/-- A length-`m` vector viewed as a `[1, m]` row and repeated down the `n` rows of an `[n, m]` array reads, at `(r, c)`,
    the vector at `c`. -/
theorem rowBias_apply {n m : ℕ} (b : (⟨1, ![m]⟩ : Shape).Idx → α)
    (h1 : (⟨1, ![m]⟩ : Shape).ShapeCasts ⟨2, ![1, m]⟩) (h2 : (⟨2, ![1, m]⟩ : Shape).Broadcasts ⟨2, ![n, m]⟩)
    (r : Fin n) (c : Fin m) :
    broadcastTo ⟨2, ![n, m]⟩ (shapeCast ⟨2, ![1, m]⟩ b h1) h2 (ix2 r c) = b (ix1 c) := by
  refine (broadcastTo_apply _ h2 (ix2 r c) (ix2 (0 : Fin 1) c) fun a => ?_).trans ?_
  · match a with
    | ⟨0, _⟩ =>
      show (0 : ℕ) = if (1 : ℕ) = 1 then 0 else r.val
      rw [if_pos rfl]
    | ⟨1, _⟩ =>
      show c.val = if m = 1 then 0 else c.val
      split
      · have := c.isLt; omega
      · rfl
  · refine shapeCast_apply b h1 _ (ix1 c) ?_
    rw [Shape.rowMajor_val_one, Shape.rowMajor_val_two]
    show c.val = 0 * m + c.val
    omega

/-- Column `o` cut out of an `[n, w]` array as an `[n, 1]` slice and flattened to a length-`n` vector reads, at `r`, the
    array at `(r, o)`. -/
theorem sliceCol_apply {n w : ℕ} (x : (⟨2, ![n, w]⟩ : Shape).Idx → α) (o : ℕ) (ho : o < w)
    (hs : (⟨2, ![n, w]⟩ : Shape).Slices ![0, o] ⟨2, ![n, 1]⟩)
    (hc : (⟨2, ![n, 1]⟩ : Shape).ShapeCasts ⟨1, ![n]⟩) (r : Fin n) :
    shapeCast ⟨1, ![n]⟩ (extractStridedSlice ⟨2, ![n, 1]⟩ ![0, o] x hs) hc (ix1 r) = x (ix2 r ⟨o, ho⟩) := by
  refine (shapeCast_apply _ hc (ix1 r) (ix2 r (0 : Fin 1)) ?_).trans ?_
  · rw [Shape.rowMajor_val_one, Shape.rowMajor_val_two]
    show r.val * 1 + 0 = r.val
    omega
  · refine extractStridedSlice_apply ![0, o] x hs _ (ix2 r ⟨o, ho⟩) fun a => ?_
    match a with
    | ⟨0, _⟩ => show r.val = 0 + r.val; omega
    | ⟨1, _⟩ => show o = o + 0; omega

/-- Sixteen `[n, 1]` columns joined side by side into an `[n, 16]` array read, at `(r, q)`, column `q` at row `r`. -/
theorem concatCols16_apply {n : ℕ} (f : Fin 16 → ((⟨2, ![n, 1]⟩ : Shape).Idx → α))
    (h : Shape.Concatenates ((List.ofFn fun k : Fin 16 => (⟨⟨2, ![n, 1]⟩, f k⟩ : (s : Shape) × (s.Idx → α))).map (·.1))
      ⟨2, ![n, 16]⟩ 1) (r : Fin n) (q : Fin 16) :
    concatenate ⟨2, ![n, 16]⟩ 1 (List.ofFn fun k : Fin 16 => (⟨⟨2, ![n, 1]⟩, f k⟩ : (s : Shape) × (s.Idx → α))) h (ix2 r q)
      = f q (ix2 r (0 : Fin 1)) :=
  concatenate_ofFn_unit_apply (t := ⟨2, ![n, 16]⟩) (s₁ := ⟨2, ![n, 1]⟩) 1 f h rfl rfl (ix2 r q) q rfl (ix2 r (0 : Fin 1))
    (fun b hb => by
      match b with
      | ⟨0, _⟩ => rfl
      | ⟨1, _⟩ => exact absurd rfl hb)

/-- An `[n, a]` array and an `[n, b]` array joined side by side read, at a column below `a`, the first array there. -/
theorem concatPair_apply_left {n a b c : ℕ} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (k : Fin c) (hk : k.val < a) :
    concatenate ⟨2, ![n, c]⟩ 1 [⟨⟨2, ![n, a]⟩, x₁⟩, ⟨⟨2, ![n, b]⟩, x₂⟩] h (ix2 r k) = x₁ (ix2 r ⟨k.val, hk⟩) :=
  concatenate_pair_apply_left (t := ⟨2, ![n, c]⟩) (s₁ := ⟨2, ![n, a]⟩) (s₂ := ⟨2, ![n, b]⟩) 1 x₁ x₂ h (ix2 r k) rfl
    (ix2 r ⟨k.val, hk⟩) (fun d => by
      match d with
      | ⟨0, _⟩ => rfl
      | ⟨1, _⟩ => rfl)

/-- and, at a column from `a` on, the second array at that column less `a`. -/
theorem concatPair_apply_right {n a b c : ℕ} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (k : Fin c) (hk : a ≤ k.val)
    (hb : k.val - a < b) :
    concatenate ⟨2, ![n, c]⟩ 1 [⟨⟨2, ![n, a]⟩, x₁⟩, ⟨⟨2, ![n, b]⟩, x₂⟩] h (ix2 r k) = x₂ (ix2 r ⟨k.val - a, hb⟩) :=
  concatenate_pair_apply_right (t := ⟨2, ![n, c]⟩) (s₁ := ⟨2, ![n, a]⟩) (s₂ := ⟨2, ![n, b]⟩) 1 x₁ x₂ h (ix2 r k) rfl rfl
    (ix2 r ⟨k.val - a, hb⟩) (fun d hd => by
      match d with
      | ⟨0, _⟩ => rfl
      | ⟨1, _⟩ => exact absurd rfl hd)
    (by show k.val - a + a = k.val; omega)

/-- Sixteen functions tabulated and then applied at one point are the table of their values there. -/
theorem eval16 {β γ : Type} (w0 w1 w2 w3 w4 w5 w6 w7 w8 w9 w10 w11 w12 w13 w14 w15 : β → γ) (i : β) (q : Fin 16) :
    (![w0, w1, w2, w3, w4, w5, w6, w7, w8, w9, w10, w11, w12, w13, w14, w15] q) i = ![w0 i, w1 i, w2 i, w3 i, w4 i, w5 i, w6 i, w7 i, w8 i, w9 i, w10 i, w11 i, w12 i, w13 i, w14 i, w15 i] q := by
  fin_cases q <;> rfl

/-- Two tables of sixteen entries that agree entry by entry are equal. -/
theorem ext16 {γ : Type} (a b : Fin 16 → γ) (h0 : a 0 = b 0) (h1 : a 1 = b 1) (h2 : a 2 = b 2) (h3 : a 3 = b 3) (h4 : a 4 = b 4) (h5 : a 5 = b 5) (h6 : a 6 = b 6) (h7 : a 7 = b 7) (h8 : a 8 = b 8) (h9 : a 9 = b 9) (h10 : a 10 = b 10) (h11 : a 11 = b 11) (h12 : a 12 = b 12) (h13 : a 13 = b 13) (h14 : a 14 = b 14) (h15 : a 15 = b 15) : a = b := by
  funext q
  fin_cases q
  exacts [h0, h1, h2, h3, h4, h5, h6, h7, h8, h9, h10, h11, h12, h13, h14, h15]

end Cert.RowForms

end
-- ==== Proof.LibHostLayers.lean ====
/-
  The reference's spellings of the three layer forms, over the extended reals and over arbitrary extents.

  The reference builds a linear layer as a dot_general plus the bias vector placed along axis 1 of a [1, N] row and
  repeated down the rows; the clamp is a maximum with the zero constant spread over the array. Its update layer joins
  the node's features and the averaged messages side by side into one [M, K1 + K2] array, multiplies by the whole
  [K1 + K2, N] matrix, adds the bias and clamps; the average is the message sum divided by the row's normalizer c r
  (a vector viewed as a column and repeated over the lanes).

  Entry (p, q) of that product is a sum over K1 + K2 positions; it splits into the first K1, which read the node's
  features against the matrix's first K1 rows, and the last K2, which read the averaged messages against its last K2
  rows. With c r at least 1, s / c r = s · (1 / c r), so the update layer is the one the kernels compute with the
  reciprocal column. Neither step needs any entry to be finite.
-/
import Idealize.ShloMosaic.Lib.Pipeline.Value
import Idealize.ShloMosaic.Lib.ValueIdx
import Idealize.ShloMosaic.Lib.ValueLayout
import Idealize.ShloMosaic.PureOps.Ideal.Laws
import proofs.«161832_j61529701482519_2_alg».proof.Proof.LibRowForms
import proofs.«161832_j61529701482519_2_alg».proof.Proof.LibHostDense
import proofs.«161832_j61529701482519_2_alg».proof.Proof.LibSage
import proofs.«161832_j61529701482519_2_alg».proof.Proof.LibMeanLaw
import proofs.«161832_j61529701482519_2_alg».proof.Proof.LibLayers

noncomputable section

namespace Cert.HostNet

open Idealize.ShloMosaic Idealize.ShloMosaic.ValueIdx Cert.Net

/-- dot_general plus the bias row: the linear layer, the bias vector viewed as a [1, N] row. -/
theorem host_lin {M K N : ℕ} (d : DotDims ⟨2, ![M, K]⟩ ⟨2, ![K, N]⟩ ⟨2, ![M, N]⟩) (hd : Cert.Sage.RowsByCols d)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (Host.dotGeneral (F := Ideal) d none x w)
      (broadcastInDim ⟨2, ![M, N]⟩ ![0, 1] h2 (broadcastInDim ⟨2, ![1, N]⟩ ![1] h1 b))
    = lin x w (shapeCast ⟨2, ![1, N]⟩ b hc) := by
  funext i
  obtain ⟨p, q, rfl⟩ : ∃ (p : Fin M) (q : Fin N), i = ix2 p q := ⟨i 0, i 1, eq_ix2 i⟩
  rw [addf_apply, Cert.HostDense.dotGeneral_rows d hd.rank hd.size hd.lhs0 hd.lhs1 hd.rhs0 hd.rhs1,
    Cert.HostDense.rowOfVector_apply, lin_apply]
  unfold linAt
  rw [shapeCast_a_1a_apply]

/-- The same followed by the maximum with the zero constant spread over the array. -/
theorem host_reluLin {M K N : ℕ} (d : DotDims ⟨2, ![M, K]⟩ ⟨2, ![K, N]⟩ ⟨2, ![M, N]⟩) (hd : Cert.Sage.RowsByCols d)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩)
    (h0 : (⟨0, ![]⟩ : Shape).BroadcastsInDim ⟨2, ![M, N]⟩ (![] : Fin 0 → Fin 2)) :
    maximumf (addf (Host.dotGeneral (F := Ideal) d none x w)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
    = reluLin x w (shapeCast ⟨2, ![1, N]⟩ b hc) := by
  funext i
  rw [Cert.HostDense.maxZero_apply, host_lin d hd x w b h1 h2 hc]
  rfl

variable {α : Type}

/-- A length-M vector viewed as an [M, 1] column and repeated over K lanes reads, at (p, k), the vector at p. -/
theorem colOfVector_apply {M K : ℕ} (c : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, K]⟩ ![0, 1]) (p : Fin M) (k : Fin K) :
    broadcastInDim ⟨2, ![M, K]⟩ ![0, 1] h2 (broadcastInDim ⟨2, ![M, 1]⟩ ![0] h1 c) (ix2 p k) = c (ix1 p) := by
  rw [broadcastInDim_apply ![0, 1] h2 _ (ix2 p k) (ix2 p (0 : Fin 1)) (fun a => by
    match a with
    | ⟨0, _⟩ =>
      show p.val = if M = 1 then 0 else p.val
      split
      · have := p.isLt; omega
      · rfl
    | ⟨1, _⟩ => rfl)]
  exact broadcastInDim_apply ![0] h1 c (ix2 p (0 : Fin 1)) (ix1 p) (fun a => by
    match a with
    | ⟨0, _⟩ =>
      show p.val = if M = 1 then 0 else p.val
      split
      · have := p.isLt; omega
      · rfl)

/-- Two arrays joined side by side, read at a column of the first. -/
theorem join_left {n a b c : ℕ} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (k : Fin a) (hk : k.val < c) :
    concatenate ⟨2, ![n, c]⟩ 1 [⟨⟨2, ![n, a]⟩, x₁⟩, ⟨⟨2, ![n, b]⟩, x₂⟩] h (ix2 r ⟨k.val, hk⟩) = x₁ (ix2 r k) :=
  Cert.RowForms.concatPair_apply_left x₁ x₂ h r ⟨k.val, hk⟩ k.isLt

/-- … and at a column of the second. -/
theorem join_right {n a b c : ℕ} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (k : Fin b) (hk : a + k.val < c) :
    concatenate ⟨2, ![n, c]⟩ 1 [⟨⟨2, ![n, a]⟩, x₁⟩, ⟨⟨2, ![n, b]⟩, x₂⟩] h (ix2 r ⟨a + k.val, hk⟩) = x₂ (ix2 r k) := by
  have hb : (⟨a + k.val, hk⟩ : Fin c).val - a < b := by show a + k.val - a < b; have := k.isLt; omega
  rw [Cert.RowForms.concatPair_apply_right x₁ x₂ h r ⟨a + k.val, hk⟩ (Nat.le_add_right a k.val) hb]
  exact congrArg x₂ (congrArg (ix2 r) (Fin.ext (by show a + k.val - a = k.val; omega)))

/-- The reference's update layer is the kernels': the joined product splits into its two parts and the quotient by a
    normalizer that is at least 1 is the product with its reciprocal. -/
theorem host_upd {M K1 K2 K N : ℕ} (hK : K = K1 + K2)
    (d : DotDims ⟨2, ![M, K]⟩ ⟨2, ![K, N]⟩ ⟨2, ![M, N]⟩) (hd : Cert.Sage.RowsByCols d)
    (x : FVec Ideal ⟨2, ![M, K1]⟩ .f32) (s : FVec Ideal ⟨2, ![M, K2]⟩ .f32) (c : FVec Ideal ⟨1, ![M]⟩ .f32)
    (hge : ∀ r : Fin M, 1 ≤ c (ix1 r))
    (w : FVec Ideal ⟨2, ![K, N]⟩ .f32) (b : FVec Ideal ⟨1, ![N]⟩ .f32)
    (hcat : Shape.Concatenates [⟨2, ![M, K1]⟩, ⟨2, ![M, K2]⟩] ⟨2, ![M, K]⟩ 1)
    (hc1 : (⟨1, ![M]⟩ : Shape).BroadcastsInDim ⟨2, ![M, 1]⟩ ![0])
    (hc2 : (⟨2, ![M, 1]⟩ : Shape).BroadcastsInDim ⟨2, ![M, K2]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩)
    (h0 : (⟨0, ![]⟩ : Shape).BroadcastsInDim ⟨2, ![M, N]⟩ (![] : Fin 0 → Fin 2)) :
    maximumf (addf (Host.dotGeneral (F := Ideal) d none
          (concatenate ⟨2, ![M, K]⟩ 1 [⟨⟨2, ![M, K1]⟩, x⟩, ⟨⟨2, ![M, K2]⟩,
            Host.divf (F := Ideal) s (broadcastInDim ⟨2, ![M, K2]⟩ ![0, 1] hc2 (broadcastInDim ⟨2, ![M, 1]⟩ ![0] hc1 c))⟩] hcat) w)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
    = upd x s (recipCol c) (topRows K1 (by omega) w) (botRows K1 K2 (by omega) w) (shapeCast ⟨2, ![1, N]⟩ b hc) := by
  funext i
  obtain ⟨p, q, rfl⟩ : ∃ (p : Fin M) (q : Fin N), i = ix2 p q := ⟨i 0, i 1, eq_ix2 i⟩
  rw [Cert.HostDense.maxZero_apply, addf_apply,
    Cert.HostDense.dotGeneral_rows d hd.rank hd.size hd.lhs0 hd.lhs1 hd.rhs0 hd.rhs1,
    Cert.HostDense.rowOfVector_apply, upd_apply]
  unfold updAt
  rw [shapeCast_a_1a_apply, Cert.Law.sum_split K1 K2 hK]
  have e1 : (∑ k : Fin K1, concatenate ⟨2, ![M, K]⟩ 1 [⟨⟨2, ![M, K1]⟩, x⟩, ⟨⟨2, ![M, K2]⟩,
            Host.divf (F := Ideal) s (broadcastInDim ⟨2, ![M, K2]⟩ ![0, 1] hc2 (broadcastInDim ⟨2, ![M, 1]⟩ ![0] hc1 c))⟩] hcat
            (ix2 p ⟨k.val, by have := k.isLt; omega⟩) * w (ix2 ⟨k.val, by have := k.isLt; omega⟩ q))
      = ∑ k : Fin K1, x (ix2 p k) * topRows K1 (by omega) w (ix2 k q) :=
    Finset.sum_congr rfl fun k _ => by rw [join_left]; rfl
  have e2 : (∑ k : Fin K2, concatenate ⟨2, ![M, K]⟩ 1 [⟨⟨2, ![M, K1]⟩, x⟩, ⟨⟨2, ![M, K2]⟩,
            Host.divf (F := Ideal) s (broadcastInDim ⟨2, ![M, K2]⟩ ![0, 1] hc2 (broadcastInDim ⟨2, ![M, 1]⟩ ![0] hc1 c))⟩] hcat
            (ix2 p ⟨K1 + k.val, by have := k.isLt; omega⟩) * w (ix2 ⟨K1 + k.val, by have := k.isLt; omega⟩ q))
      = ∑ k : Fin K2, (s (ix2 p k) * recipCol c (ix2 p (0 : Fin 1))) * botRows K1 K2 (by omega) w (ix2 k q) :=
    Finset.sum_congr rfl fun k _ => by
      rw [join_right]
      show Ideal.div (s (ix2 p k)) (broadcastInDim ⟨2, ![M, K2]⟩ ![0, 1] hc2 (broadcastInDim ⟨2, ![M, 1]⟩ ![0] hc1 c) (ix2 p k)) * _ = _
      rw [colOfVector_apply, Cert.Law.div_eq_mul_recip _ _ (hge p)]
      show _ = s (ix2 p k) * Ideal.div (Ideal.ofBits .f32 0x3F800000#32) (c (ix1 p)) * _
      rw [Cert.Law.one_word]
      rfl
  rw [e1, e2]

end Cert.HostNet

end
-- ==== Proof.Ref.lean ====
/-
  The reference program, stage by stage, is the network of the argument arrays.

  Its stages are read off as whole arrays: a dot_general with the bias row added is a linear layer; the stage that joins
  the features with the averaged messages, multiplies by the whole matrix, adds the bias and clamps is an update layer
  (the joined product split in two, the quotient by the normalizer written as the product with its reciprocal); the
  gather and scatter between them are the aggregation, applied to the stage before it. The second normalizer the
  reference computes is the first one again.
-/
import proofs.«161832_j61529701482519_2_alg».proof.Proof.Gen.ReferenceIdeal.Read
import proofs.«161832_j61529701482519_2_alg».proof.Proof.Spec
import proofs.«161832_j61529701482519_2_alg».proof.Proof.LibHostLayers

set_option maxRecDepth 16384

noncomputable section

namespace Cert.RefNet

open Cert.ReferenceIdeal Cert.ReferenceIdeal.Facts₀ Cert.ReferenceIdeal.Read Idealize.ShloMosaic Idealize.ShloMosaic.ValueIdx Cert.Net Cert.Spec Cert.HostNet

theorem rbc4 : Cert.Sage.RowsByCols dot_S100000x256_S256x64_S100000x64_1_0_0_1_n_n :=
  ⟨rfl, rfl, lhs_main_v4_0, lhs_main_v4_1, rhs_main_v4_0, rhs_main_v4_1⟩
theorem rbc28 : Cert.Sage.RowsByCols dot_S100000x320_S320x128_S100000x128_1_0_0_1_n_n :=
  ⟨rfl, rfl, lhs_main_v28_0, lhs_main_v28_1, rhs_main_v28_0, rhs_main_v28_1⟩
theorem rbc33 : Cert.Sage.RowsByCols dot_S100000x128_S128x64_S100000x64_1_0_0_1_n_n :=
  ⟨rfl, rfl, lhs_main_v33_0, lhs_main_v33_1, rhs_main_v33_0, rhs_main_v33_1⟩
theorem rbc57 : Cert.Sage.RowsByCols dot_S100000x192_S192x64_S100000x64_1_0_0_1_n_n :=
  ⟨rfl, rfl, lhs_main_v57_0, lhs_main_v57_1, rhs_main_v57_0, rhs_main_v57_1⟩
theorem rbc62 : Cert.Sage.RowsByCols dot_S100000x64_S64x32_S100000x32_1_0_0_1_n_n :=
  ⟨rfl, rfl, lhs_main_v62_0, lhs_main_v62_1, rhs_main_v62_0, rhs_main_v62_1⟩
theorem rbc67 : Cert.Sage.RowsByCols dot_S100000x32_S32x1_S100000x1_1_0_0_1_n_n :=
  ⟨rfl, rfl, lhs_main_v67_0, lhs_main_v67_1, rhs_main_v67_0, rhs_main_v67_1⟩

variable (x0 : FVec Ideal S100000x256 .f32) (x1 : (⟨S2x3200000, .i32⟩ : BufTy).Contents (Elt Ideal))
  (x3 : FVec Ideal S256x64 .f32) (x4 : FVec Ideal S64 .f32) (x5 : FVec Ideal S320x128 .f32) (x6 : FVec Ideal S128 .f32)
  (x7 : FVec Ideal S128x64 .f32) (x8 : FVec Ideal S64 .f32) (x9 : FVec Ideal S192x64 .f32) (x10 : FVec Ideal S64 .f32)
  (x11 : FVec Ideal S64x32 .f32) (x12 : FVec Ideal S32 .f32) (x13 : FVec Ideal S32x1 .f32) (x14 : FVec Ideal S1 .f32)

/-- The first messages. -/
theorem v7_eq : val_main_v7 (F := Ideal) x0 x3 x4 = h1 x0 x3 x4 := by
  unfold val_main_v7 val_main_v4 val_main_v6 val_main_v5
  exact host_lin _ rbc4 x0 x3 x4 bcast_S64_S1x64_1 bcast_S1x64_S100000x64_0_1 sc64

/-- Their aggregation. -/
theorem v17_eq : val_main_v17 (F := Ideal) x0 x1 x3 x4 = agg x1 (h1 x0 x3 x4) := by
  unfold val_main_v17 val_main_v14
  rw [v7_eq]
  rfl

/-- The first layer's output. -/
theorem v32_eq : val_main_v32 (F := Ideal) x0 x1 x3 x4 x5 x6 = Spec.x1 x1 x0 x3 x4 x5 x6 := by
  have h := host_upd (K1 := 256) (K2 := 64) rfl _ rbc28 x0 (val_main_v17 (F := Ideal) x0 x1 x3 x4) (cmax x1) (cmax_ge x1) x5 x6
    concatenates_S100000x256_S100000x64_S100000x320_d1 bcast_S100000_S100000x1_0 bcast_S100000x1_S100000x64_0_1
    bcast_S128_S1x128_1 bcast_S1x128_S100000x128_0_1 sc128 bcast_S_S100000x128
  rw [v17_eq] at h
  unfold val_main_v32 val_main_v31 val_main_v28 val_main_v27 val_main_v26 val_main_v25 val_main_v24 val_main_v30 val_main_v29
    val_main_call0_v0 val_main_call0_cst
  rw [v17_eq]
  exact h

/-- The second normalizer the reference computes is the first. -/
theorem v52_eq : val_main_v52 (F := Ideal) x1 = cmax x1 := by
  unfold cmax val_main_v52 val_main_v23 val_main_v50 val_main_v21 val_main_v51 val_main_v22 val_main_v49 val_main_v20
    val_main_v48 val_main_v19 val_main_v47 val_main_v18 val_main_cst_9 val_main_cst_3 val_main_cst_8 val_main_cst_2
    val_main_cst_7 val_main_cst_1
  rfl

/-- The second messages. -/
theorem v36_eq : val_main_v36 (F := Ideal) x0 x1 x3 x4 x5 x6 x7 x8 = h2 (Spec.x1 x1 x0 x3 x4 x5 x6) x7 x8 := by
  have h := host_lin _ rbc33 (val_main_v32 (F := Ideal) x0 x1 x3 x4 x5 x6) x7 x8 bcast_S64_S1x64_1 bcast_S1x64_S100000x64_0_1 sc64
  rw [v32_eq] at h
  unfold val_main_v36 val_main_v33 val_main_v35 val_main_v34
  rw [v32_eq]
  exact h

/-- Their aggregation. -/
theorem v46_eq : val_main_v46 (F := Ideal) x0 x1 x3 x4 x5 x6 x7 x8 = agg x1 (h2 (Spec.x1 x1 x0 x3 x4 x5 x6) x7 x8) := by
  unfold val_main_v46 val_main_v43
  rw [v36_eq]
  unfold agg val_main_v44 val_main_v15 val_main_v45 val_main_v16 val_main_v42 val_main_v13 val_main_v41 val_main_v12
    val_main_v40 val_main_v11 val_main_v39 val_main_v10 val_main_v38 val_main_v9 val_main_v37 val_main_v8
    val_main_c_4 val_main_c val_main_c_5 val_main_c_0 val_main_cst_6 val_main_cst
  rfl

/-- The second layer's output. -/
theorem v61_eq : val_main_v61 (F := Ideal) x0 x1 x3 x4 x5 x6 x7 x8 x9 x10
    = Spec.x2 x1 (Spec.x1 x1 x0 x3 x4 x5 x6) (agg x1 (h2 (Spec.x1 x1 x0 x3 x4 x5 x6) x7 x8)) x9 x10 := by
  have h := host_upd (K1 := 128) (K2 := 64) rfl _ rbc57 (val_main_v32 (F := Ideal) x0 x1 x3 x4 x5 x6) (val_main_v46 (F := Ideal) x0 x1 x3 x4 x5 x6 x7 x8)
    (cmax x1) (cmax_ge x1) x9 x10
    concatenates_S100000x128_S100000x64_S100000x192_d1 bcast_S100000_S100000x1_0 bcast_S100000x1_S100000x64_0_1
    bcast_S64_S1x64_1 bcast_S1x64_S100000x64_0_1 sc64 bcast_S_S100000x64
  rw [v32_eq, v46_eq] at h
  unfold val_main_v61 val_main_v60 val_main_v57 val_main_v56 val_main_v55 val_main_v54 val_main_v53 val_main_v59 val_main_v58
    val_main_call1_v0 val_main_call1_cst
  rw [v32_eq, v46_eq, v52_eq]
  exact h

/-- The result. -/
theorem v70_eq : val_main_v70 (F := Ideal) x0 x1 x3 x4 x5 x6 x7 x8 x9 x10 x11 x12 x13 x14
    = head (Spec.x2 x1 (Spec.x1 x1 x0 x3 x4 x5 x6) (agg x1 (h2 (Spec.x1 x1 x0 x3 x4 x5 x6) x7 x8)) x9 x10) x11 x12 x13 x14 := by
  have h66 : val_main_v66 (F := Ideal) x0 x1 x3 x4 x5 x6 x7 x8 x9 x10 x11 x12
      = reluLin (val_main_v61 (F := Ideal) x0 x1 x3 x4 x5 x6 x7 x8 x9 x10) x11 (shapeCast S1x32 x12 sc32) := by
    unfold val_main_v66 val_main_v65 val_main_v62 val_main_v64 val_main_v63 val_main_call2_v0 val_main_call2_cst
    exact host_reluLin _ rbc62 (val_main_v61 (F := Ideal) x0 x1 x3 x4 x5 x6 x7 x8 x9 x10) x11 x12 bcast_S32_S1x32_1 bcast_S1x32_S100000x32_0_1 sc32 bcast_S_S100000x32
  have h := host_lin _ rbc67 (val_main_v66 (F := Ideal) x0 x1 x3 x4 x5 x6 x7 x8 x9 x10 x11 x12) x13 x14 bcast_S1_S1x1_1 bcast_S1x1_S100000x1_0_1 sc1
  rw [h66, v61_eq] at h
  unfold val_main_v70 val_main_v67 val_main_v69 val_main_v68
  rw [h66, v61_eq]
  exact h

end Cert.RefNet

end
-- ==== Proof.lean ====
/-
  A two-layer message-passing network with a two-layer head, on a graph of 100000 nodes and 3200000 edges: the kernel
  program against the plain reference, at the idealized reading (floats are extended reals, operations exact).

  Both programs compute, for every node, messages h = x·Wa + ba; the sum s of the messages of the node's incoming
  edges' sources; the mean m = s / c with c the number of incoming edges raised to at least 1; the update
  relu([x, m]·Wb + bb); twice; then relu(x·Wl1 + bl1)·Wl2 + bl2. They differ in two spellings only.

  * The reference joins x and m into one array and multiplies by the whole matrix Wb; the kernels multiply x by the
    first rows of Wb and m by the last 64 rows and add. A sum over the joined columns is the sum over the first ones
    plus the sum over the last 64, addition of extended reals being commutative and associative.
  * The reference divides s by c; the kernels multiply s by 1 / c, computed once. Since c is at least 1 it is not 0,
    and a quotient by a non-zero extended real is by definition the product with its inverse, so s / c = s · (1 / c)
    for every s, finite or not, and for c = +inf too.

  Neither step uses that any input is finite, so the precondition is never opened. The gather and scatter-add that
  aggregate the messages, and the count of incoming edges, are the same host operations in both programs and are never
  unfolded. Changes of float format are the identity at this reading, and a product into a zero accumulator is the
  host's dot_general.

  The kernel program is three grids of launches among host operations. Its run is read back segment by segment: each
  grid's 20 blocks of 5000 rows tile its output, and an entry of a block reads one row of the row-indexed inputs only,
  so each output array is one layer function of the arrays the grid found. The reference's run and its stages are the
  generated ones. No ideal-pass rewrite was applied, so there is nothing to preserve.
-/
import proofs.«161832_j61529701482519_2_alg».proof.Defs
import proofs.«161832_j61529701482519_2_alg».proof.Proof.Gen.Kernel
import proofs.«161832_j61529701482519_2_alg».proof.Proof.Gen.Kernel.Skeleton
import proofs.«161832_j61529701482519_2_alg».proof.Proof.Gen.Kernel.Launch
import proofs.«161832_j61529701482519_2_alg».proof.Proof.Gen.Kernel.Points
import proofs.«161832_j61529701482519_2_alg».proof.Proof.Gen.Kernel.Frame
import proofs.«161832_j61529701482519_2_alg».proof.Proof.Gen.KernelIdeal
import proofs.«161832_j61529701482519_2_alg».proof.Proof.Gen.KernelIdeal.Skeleton
import proofs.«161832_j61529701482519_2_alg».proof.Proof.Gen.KernelIdeal.Launch
import proofs.«161832_j61529701482519_2_alg».proof.Proof.Gen.KernelIdeal.Points
import proofs.«161832_j61529701482519_2_alg».proof.Proof.Gen.KernelIdeal.Frame
import proofs.«161832_j61529701482519_2_alg».proof.Proof.Gen.ReferenceIdeal
import proofs.«161832_j61529701482519_2_alg».proof.Proof.Gen.Pre_finite_inputs
import proofs.«161832_j61529701482519_2_alg».proof.Proof.Gen.ReferenceIdeal.Run
import proofs.«161832_j61529701482519_2_alg».proof.Proof.Gen.ReferenceIdeal.Read
import proofs.«161832_j61529701482519_2_alg».proof.Proof.KRun
import proofs.«161832_j61529701482519_2_alg».proof.Proof.KChain
import proofs.«161832_j61529701482519_2_alg».proof.Proof.Ref
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network of the argument arrays in their
    result buffers. -/
theorem algebraic : Cert.algebraic_KernelIdeal_ReferenceIdeal := by
  intro m ρ m' ρ' _ hagree
  refine ⟨fun c => Cert.KernelIdeal.Gen.W6 m ρ c (Proc.devRef .tc Cert.KernelIdeal.main_v45),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine Eq.trans ?_ (Cert.KernelIdeal.Chain.result m ρ c).symm
  rw [Cert.ReferenceIdeal.Read.val_main_v70_eq, Cert.RefNet.v70_eq]
  obtain ⟨a0, a1, a2, a3, a4, a5, a6, a7, a8, a9, a10, a11, a12, a13, a14⟩ := hagree c
  rw [a0, a1, a3, a4, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
